-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S800000 .f32) (main_arg2 : FVec F S128x128 .f32) (main_arg3 : FVec F S128 .f32) (main_arg4 : FVec F S128x128 .f32) (main_arg5 : FVec F S128 .f32) (main_arg6 : FVec F S128x1 .f32) (main_arg7 : FVec F S1 .f32) (main_arg8 : IVec S2x800000 32) (main_arg9 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S64 : Shape := ⟨1, ![64]⟩
abbrev S50000x1 : Shape := ⟨2, ![50000, 1]⟩
abbrev S64x128 : Shape := ⟨2, ![64, 128]⟩
abbrev S64x1 : Shape := ⟨2, ![64, 1]⟩
abbrev S1x1 : Shape := ⟨2, ![1, 1]⟩

abbrev nBuf : Space → Nat
  | .hbm => 103
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S2x800000, .i32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S50000, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x128, .f32⟩
  | .hbm, ⟨53, _⟩ => ⟨S850000x1, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S850000x1, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S64, .f32⟩
  | .hbm, ⟨94, _⟩ => ⟨S50000x1, .i32⟩
  | .hbm, ⟨95, _⟩ => ⟨S64, .f32⟩
  | .hbm, ⟨96, _⟩ => ⟨S_, .f32⟩
  | .hbm, ⟨97, _⟩ => ⟨S64x128, .f32⟩
  | .hbm, ⟨98, _⟩ => ⟨S50000x1, .i32⟩
  | .hbm, ⟨99, _⟩ => ⟨S64x128, .f32⟩
  | .hbm, ⟨100, _⟩ => ⟨S64x1, .f32⟩
  | .hbm, ⟨101, _⟩ => ⟨S1x1, .f32⟩
  | .hbm, ⟨102, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S64x128, .f32⟩
  | .local _ .vmem, ⟨21, _⟩ => ⟨S64x1, .f32⟩
  | .local _ .vmem, ⟨22, _⟩ => ⟨S128x1, .f32⟩
  | .local _ .vmem, ⟨23, _⟩ => ⟨S1x1, .f32⟩
  | .local _ .vmem, ⟨24, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  shapeCasts_S64_S64x1 : S64.ShapeCasts S64x1
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S64x1_S64x128 : S64x1.Broadcasts S64x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x1.size a ≤ S128x1.size a
  hwx4_2 : ∀ i : grid4.Coords, EltTy.bits .f32 = 32 ∨ (Rect.block (s := S128x1) S128x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v71) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S128x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73) S64x1.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64 : Shape := ⟨1, ![64]⟩
abbrev S50000x1 : Shape := ⟨2, ![50000, 1]⟩
abbrev S64x128 : Shape := ⟨2, ![64, 128]⟩
abbrev S64x1 : Shape := ⟨2, ![64, 1]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S2x800000, .i32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S50000, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x128, .f32⟩
  | .hbm, ⟨53, _⟩ => ⟨S850000x1, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S850000x1, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x128, .f32⟩
  | .hbm, ⟨86, _⟩ => ⟨S850000x128, .f32⟩
  | .hbm, ⟨87, _⟩ => ⟨S850000x128, .f32⟩
  | .hbm, ⟨88, _⟩ => ⟨S_, .f32⟩
  | .hbm, ⟨89, _⟩ => ⟨S50000x128, .f32⟩
  | .hbm, ⟨90, _⟩ => ⟨S850000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000, .f32⟩
  | .hbm, ⟨100, _⟩ => ⟨S_, .f32⟩
  | .hbm, ⟨101, _⟩ => ⟨S64, .f32⟩
  | .hbm, ⟨102, _⟩ => ⟨S50000x1, .i32⟩
  | .hbm, ⟨103, _⟩ => ⟨S64, .f32⟩
  | .hbm, ⟨104, _⟩ => ⟨S_, .f32⟩
  | .hbm, ⟨105, _⟩ => ⟨S64x128, .f32⟩
  | .hbm, ⟨106, _⟩ => ⟨S50000x1, .i32⟩
  | .hbm, ⟨107, _⟩ => ⟨S64x128, .f32⟩
  | .hbm, ⟨108, _⟩ => ⟨S_, .f32⟩
  | .hbm, ⟨109, _⟩ => ⟨S64, .f32⟩
  | .hbm, ⟨110, _⟩ => ⟨S64, .f32⟩
  | .hbm, ⟨111, _⟩ => ⟨S64x1, .f32⟩
  | .hbm, ⟨112, _⟩ => ⟨S64x128, .f32⟩
  | .hbm, ⟨113, _⟩ => ⟨S64x128, .f32⟩
  | .hbm, ⟨114, _⟩ => ⟨S64x1, .f32⟩
  | .hbm, ⟨115, _⟩ => ⟨S1x1, .f32⟩
  | .hbm, ⟨116, _⟩ => ⟨S64x1, .f32⟩
  | .hbm, ⟨117, _⟩ => ⟨S64x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_cst_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_15 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x1_S64x1_1_0_0_1_n_n_wf : DotDims.WF S64x128 S128x1 S64x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KernelRun.lean ====
/-
  The idealized kernel's run with its result array named.

  The program is five tiled kernel regions among stretches of host operations.  Every weakly fair execution
  terminates, and the result buffer ends at the contents of the last boundary of the fold through the program:
  each host stretch applies its operations to the contents before it, each region replaces its output array by
  what its write-backs leave.  The ten argument arrays end as launched.
-/
import proofs.«130122_j30812095381571_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer holds the last boundary's contents
    at the result's reference, and every argument array is as launched. -/
theorem run_named : θ_run defs (onTc (τ := τ) (main (F := F))) ⟨m, fun _ => 0, ρ⟩ (fun r => ∀ c : Dev nD,
      r.2.mem ((c.tc : Thread nD τ).loc main_v73) = W11 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v73 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.Run

end
-- ==== Proof.ChainA.lean ====
/-
  The fold through the idealized kernel's program, read one boundary at a time (part 1 of 4).

  Between its five kernel regions the program applies the same host operations as the reference: the edge lists
  extended by self loops, the degrees and their inverse square roots, the gathers along the source nodes and the
  scatter-adds onto the target nodes and onto the graphs.  At every boundary each live buffer is therefore the
  reference's own stage function of the ten argument arrays.  This part: the operations up to the choice of
  1 / sqrt(degree) where the degree is positive (and 0 elsewhere).
-/
import proofs.«130122_j30812095381571_1_alg».proof.Proof.Gen.KernelIdeal.Frame
import proofs.«130122_j30812095381571_1_alg».proof.Proof.Gen.ReferenceIdeal.Read
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The ten argument arrays as launched -/
abbrev x0 (c : Dev nD) : (⟨Cert.ReferenceIdeal.S50000x128, .f32⟩ : BufTy).Contents (Elt Ideal) := m ((c.tc : Thread nD τ).loc main_arg0)
abbrev x1 (c : Dev nD) : (⟨Cert.ReferenceIdeal.S800000, .f32⟩ : BufTy).Contents (Elt Ideal) := m ((c.tc : Thread nD τ).loc main_arg1)
abbrev x2 (c : Dev nD) : (⟨Cert.ReferenceIdeal.S128x128, .f32⟩ : BufTy).Contents (Elt Ideal) := m ((c.tc : Thread nD τ).loc main_arg2)
abbrev x3 (c : Dev nD) : (⟨Cert.ReferenceIdeal.S128, .f32⟩ : BufTy).Contents (Elt Ideal) := m ((c.tc : Thread nD τ).loc main_arg3)
abbrev x4 (c : Dev nD) : (⟨Cert.ReferenceIdeal.S128x128, .f32⟩ : BufTy).Contents (Elt Ideal) := m ((c.tc : Thread nD τ).loc main_arg4)
abbrev x5 (c : Dev nD) : (⟨Cert.ReferenceIdeal.S128, .f32⟩ : BufTy).Contents (Elt Ideal) := m ((c.tc : Thread nD τ).loc main_arg5)
abbrev x6 (c : Dev nD) : (⟨Cert.ReferenceIdeal.S128x1, .f32⟩ : BufTy).Contents (Elt Ideal) := m ((c.tc : Thread nD τ).loc main_arg6)
abbrev x7 (c : Dev nD) : (⟨Cert.ReferenceIdeal.S1, .f32⟩ : BufTy).Contents (Elt Ideal) := m ((c.tc : Thread nD τ).loc main_arg7)
abbrev x8 (c : Dev nD) : (⟨Cert.ReferenceIdeal.S2x800000, .i32⟩ : BufTy).Contents (Elt Ideal) := m ((c.tc : Thread nD τ).loc main_arg8)
abbrev x9 (c : Dev nD) : (⟨Cert.ReferenceIdeal.S50000, .i32⟩ : BufTy).Contents (Elt Ideal) := m ((c.tc : Thread nD τ).loc main_arg9)
/-! ## The inlined `where`: a buffer's contents at the buffer's own type are the value at the value's type

The three operations of the inlined selection read and write their buffers through a change of type that is the
identity, the buffer's type being the value's. -/

theorem ofBuf_cst_2 (a : (⟨S_, .f32⟩ : BufTy).Contents (Elt Ideal)) :
    (TRef.of main_cst_2 : TRef sig ⟨S_, .f32⟩).ofBuf a = a := rfl
theorem ofBuf_call0_v0 (a : (⟨S_, .f32⟩ : BufTy).Contents (Elt Ideal)) :
    (TRef.of main_call0_v0 : TRef sig ⟨S_, .f32⟩).ofBuf a = a := rfl
theorem toBuf_call0_v0 (a : (⟨S_, .f32⟩ : BufTy).Contents (Elt Ideal)) :
    (TRef.of main_call0_v0 : TRef sig ⟨S_, .f32⟩).toBuf a = a := rfl
theorem ofBuf_call0_v1 (a : (⟨S50000, .f32⟩ : BufTy).Contents (Elt Ideal)) :
    (TRef.of main_call0_v1 : TRef sig ⟨S50000, .f32⟩).ofBuf a = a := rfl
theorem toBuf_call0_v1 (a : (⟨S50000, .f32⟩ : BufTy).Contents (Elt Ideal)) :
    (TRef.of main_call0_v1 : TRef sig ⟨S50000, .f32⟩).toBuf a = a := rfl
theorem ofBuf_v13 (a : (⟨S50000, .i1⟩ : BufTy).Contents (Elt Ideal)) :
    (TRef.of main_v13 : TRef sig ⟨S50000, .i1⟩).ofBuf a = a := rfl
theorem ofBuf_v14 (a : (⟨S50000, .f32⟩ : BufTy).Contents (Elt Ideal)) :
    (TRef.of main_v14 : TRef sig ⟨S50000, .f32⟩).ofBuf a = a := rfl
theorem toBuf_v15 (a : (⟨S50000, .f32⟩ : BufTy).Contents (Elt Ideal)) :
    (TRef.of main_v15 : TRef sig ⟨S50000, .f32⟩).toBuf a = a := rfl

/-! ## Before the first region: the edge lists with self loops, the degrees and their inverse square roots -/

set_option maxHeartbeats 4000000 in
theorem L1_v5 (c : Dev nD) : W1 m ρ c (Proc.devRef .tc main_v5) = Cert.ReferenceIdeal.Read.val_main_v5 (x8 m c) := by
  dsimp only [W1, hostOps0]
  after_results
  all_goals rfl

set_option maxHeartbeats 4000000 in
theorem L1_v6 (c : Dev nD) : W1 m ρ c (Proc.devRef .tc main_v6) = Cert.ReferenceIdeal.Read.val_main_v6 (x8 m c) := by
  dsimp only [W1, hostOps0]
  after_results
  all_goals rfl

set_option maxHeartbeats 4000000 in
theorem L1_v8 (c : Dev nD) : W1 m ρ c (Proc.devRef .tc main_v8) = Cert.ReferenceIdeal.Read.val_main_v8 (x1 m c) := by
  dsimp only [W1, hostOps0]
  after_results
  all_goals rfl

set_option maxHeartbeats 4000000 in
theorem L1_v13 (c : Dev nD) : W1 m ρ c (Proc.devRef .tc main_v13) = Cert.ReferenceIdeal.Read.val_main_v13 (x1 m c) (x8 m c) := by
  dsimp only [W1, hostOps0]
  after_results
  all_goals rfl

set_option maxHeartbeats 4000000 in
theorem L1_v14 (c : Dev nD) : W1 m ρ c (Proc.devRef .tc main_v14) = Cert.ReferenceIdeal.Read.val_main_v14 (x1 m c) (x8 m c) := by
  dsimp only [W1, hostOps0]
  after_results
  all_goals rfl

set_option maxHeartbeats 4000000 in
theorem L1_cst_2 (c : Dev nD) : W1 m ρ c (Proc.devRef .tc main_cst_2) = Cert.ReferenceIdeal.Read.val_main_cst_2 (F := Ideal) := by
  dsimp only [W1, hostOps0]
  after_results
  all_goals rfl

set_option maxHeartbeats 4000000 in
theorem L1_a0 (c : Dev nD) : W1 m ρ c (Proc.devRef .tc main_arg0) = x0 m c := by
  dsimp only [W1, hostOps0]
  after_results
  all_goals rfl

set_option maxHeartbeats 4000000 in
theorem L1_a2 (c : Dev nD) : W1 m ρ c (Proc.devRef .tc main_arg2) = x2 m c := by
  dsimp only [W1, hostOps0]
  after_results
  all_goals rfl

set_option maxHeartbeats 4000000 in
theorem L1_a3 (c : Dev nD) : W1 m ρ c (Proc.devRef .tc main_arg3) = x3 m c := by
  dsimp only [W1, hostOps0]
  after_results
  all_goals rfl

set_option maxHeartbeats 4000000 in
theorem L1_a4 (c : Dev nD) : W1 m ρ c (Proc.devRef .tc main_arg4) = x4 m c := by
  dsimp only [W1, hostOps0]
  after_results
  all_goals rfl

set_option maxHeartbeats 4000000 in
theorem L1_a5 (c : Dev nD) : W1 m ρ c (Proc.devRef .tc main_arg5) = x5 m c := by
  dsimp only [W1, hostOps0]
  after_results
  all_goals rfl

set_option maxHeartbeats 4000000 in
theorem L1_a6 (c : Dev nD) : W1 m ρ c (Proc.devRef .tc main_arg6) = x6 m c := by
  dsimp only [W1, hostOps0]
  after_results
  all_goals rfl

set_option maxHeartbeats 4000000 in
theorem L1_a7 (c : Dev nD) : W1 m ρ c (Proc.devRef .tc main_arg7) = x7 m c := by
  dsimp only [W1, hostOps0]
  after_results
  all_goals rfl

set_option maxHeartbeats 4000000 in
theorem L1_a9 (c : Dev nD) : W1 m ρ c (Proc.devRef .tc main_arg9) = x9 m c := by
  dsimp only [W1, hostOps0]
  after_results
  all_goals rfl

set_option maxHeartbeats 4000000 in
theorem L2_v15 (c : Dev nD) : W2 m ρ c (Proc.devRef .tc main_v15) = Cert.ReferenceIdeal.Read.val_main_v15 (x1 m c) (x8 m c) := by
  have e0 := L1_v13 m ρ c
  have e1 := L1_v14 m ρ c
  have e2 := L1_cst_2 m ρ c
  show StableHlo.after hostOps0_1 (W1 m ρ c) (Proc.devRef .tc main_v15) = _
  generalize W1 m ρ c = Wv at e0 e1 e2 ⊢
  dsimp only [hostOps0_1]
  after_results
  rw [e0, e1, e2]
  rw [ofBuf_v13, ofBuf_v14, ofBuf_cst_2, toBuf_call0_v0, ofBuf_call0_v0, toBuf_call0_v1, ofBuf_call0_v1, toBuf_v15]
  rfl

set_option maxHeartbeats 4000000 in
theorem L2_v5 (c : Dev nD) : W2 m ρ c (Proc.devRef .tc main_v5) = Cert.ReferenceIdeal.Read.val_main_v5 (x8 m c) := by
  have e0 := L1_v5 m ρ c
  show StableHlo.after hostOps0_1 (W1 m ρ c) (Proc.devRef .tc main_v5) = _
  generalize W1 m ρ c = Wv at e0 ⊢
  dsimp only [hostOps0_1]
  after_results
  exact e0

set_option maxHeartbeats 4000000 in
theorem L2_v6 (c : Dev nD) : W2 m ρ c (Proc.devRef .tc main_v6) = Cert.ReferenceIdeal.Read.val_main_v6 (x8 m c) := by
  have e0 := L1_v6 m ρ c
  show StableHlo.after hostOps0_1 (W1 m ρ c) (Proc.devRef .tc main_v6) = _
  generalize W1 m ρ c = Wv at e0 ⊢
  dsimp only [hostOps0_1]
  after_results
  exact e0

set_option maxHeartbeats 4000000 in
theorem L2_v8 (c : Dev nD) : W2 m ρ c (Proc.devRef .tc main_v8) = Cert.ReferenceIdeal.Read.val_main_v8 (x1 m c) := by
  have e0 := L1_v8 m ρ c
  show StableHlo.after hostOps0_1 (W1 m ρ c) (Proc.devRef .tc main_v8) = _
  generalize W1 m ρ c = Wv at e0 ⊢
  dsimp only [hostOps0_1]
  after_results
  exact e0

set_option maxHeartbeats 4000000 in
theorem L2_a0 (c : Dev nD) : W2 m ρ c (Proc.devRef .tc main_arg0) = x0 m c := by
  have e0 := L1_a0 m ρ c
  show StableHlo.after hostOps0_1 (W1 m ρ c) (Proc.devRef .tc main_arg0) = _
  generalize W1 m ρ c = Wv at e0 ⊢
  dsimp only [hostOps0_1]
  after_results
  exact e0

set_option maxHeartbeats 4000000 in
theorem L2_a2 (c : Dev nD) : W2 m ρ c (Proc.devRef .tc main_arg2) = x2 m c := by
  have e0 := L1_a2 m ρ c
  show StableHlo.after hostOps0_1 (W1 m ρ c) (Proc.devRef .tc main_arg2) = _
  generalize W1 m ρ c = Wv at e0 ⊢
  dsimp only [hostOps0_1]
  after_results
  exact e0

set_option maxHeartbeats 4000000 in
theorem L2_a3 (c : Dev nD) : W2 m ρ c (Proc.devRef .tc main_arg3) = x3 m c := by
  have e0 := L1_a3 m ρ c
  show StableHlo.after hostOps0_1 (W1 m ρ c) (Proc.devRef .tc main_arg3) = _
  generalize W1 m ρ c = Wv at e0 ⊢
  dsimp only [hostOps0_1]
  after_results
  exact e0

set_option maxHeartbeats 4000000 in
theorem L2_a4 (c : Dev nD) : W2 m ρ c (Proc.devRef .tc main_arg4) = x4 m c := by
  have e0 := L1_a4 m ρ c
  show StableHlo.after hostOps0_1 (W1 m ρ c) (Proc.devRef .tc main_arg4) = _
  generalize W1 m ρ c = Wv at e0 ⊢
  dsimp only [hostOps0_1]
  after_results
  exact e0

set_option maxHeartbeats 4000000 in
theorem L2_a5 (c : Dev nD) : W2 m ρ c (Proc.devRef .tc main_arg5) = x5 m c := by
  have e0 := L1_a5 m ρ c
  show StableHlo.after hostOps0_1 (W1 m ρ c) (Proc.devRef .tc main_arg5) = _
  generalize W1 m ρ c = Wv at e0 ⊢
  dsimp only [hostOps0_1]
  after_results
  exact e0

set_option maxHeartbeats 4000000 in
theorem L2_a6 (c : Dev nD) : W2 m ρ c (Proc.devRef .tc main_arg6) = x6 m c := by
  have e0 := L1_a6 m ρ c
  show StableHlo.after hostOps0_1 (W1 m ρ c) (Proc.devRef .tc main_arg6) = _
  generalize W1 m ρ c = Wv at e0 ⊢
  dsimp only [hostOps0_1]
  after_results
  exact e0

set_option maxHeartbeats 4000000 in
theorem L2_a7 (c : Dev nD) : W2 m ρ c (Proc.devRef .tc main_arg7) = x7 m c := by
  have e0 := L1_a7 m ρ c
  show StableHlo.after hostOps0_1 (W1 m ρ c) (Proc.devRef .tc main_arg7) = _
  generalize W1 m ρ c = Wv at e0 ⊢
  dsimp only [hostOps0_1]
  after_results
  exact e0

set_option maxHeartbeats 4000000 in
theorem L2_a9 (c : Dev nD) : W2 m ρ c (Proc.devRef .tc main_arg9) = x9 m c := by
  have e0 := L1_a9 m ρ c
  show StableHlo.after hostOps0_1 (W1 m ρ c) (Proc.devRef .tc main_arg9) = _
  generalize W1 m ρ c = Wv at e0 ⊢
  dsimp only [hostOps0_1]
  after_results
  exact e0

end Cert.KernelIdeal.Chain

end
-- ==== Proof.Stages.lean ====
/-
  The three dense stages of the network as whole-array functions on the extended reals, written with the
  reference's own host operations: a feature transform (rows times a 128 x 128 weight matrix), a bias row added to
  every row followed by the positive part, and the pooling head (each graph's summed features divided by its node
  count clamped below by one, times the head's weight column, plus the head's bias).
-/
import proofs.«130122_j30812095381571_1_alg».proof.Proof.Gen.ReferenceIdeal
import Idealize.ShloMosaic.PureOps.Ideal

noncomputable section

namespace Cert.Stages

open Cert.ReferenceIdeal Cert.ReferenceIdeal.Gen Idealize.ShloMosaic

/-- Every row of `X` times the weight matrix `W`: entry (r, q) is the sum over k of X(r, k) * W(k, q). -/
def denseLayer (X : FVec Ideal S50000x128 .f32) (W : FVec Ideal S128x128 .f32) : FVec Ideal S50000x128 .f32 :=
  Host.dotGeneral dot_S50000x128_S128x128_S50000x128_1_0_0_1_n_n none X W

/-- The bias row `B` added to every row of `A`, then the maximum with zero: entry (r, q) is max (A(r, q) + B(0, q)) 0. -/
def biasRelu (A : FVec Ideal S50000x128 .f32) (B : FVec Ideal S1x128 .f32) : FVec Ideal S50000x128 .f32 :=
  maximumf (addf A (broadcastInDim S50000x128 ![0, 1] bcast_S1x128_S50000x128_0_1 B))
    (broadcastInDim S50000x128 ![] bcast_S_S50000x128 (constant S_ .f32 0x00000000#32))

/-- The pooling head: entry (g, 0) is the sum over k of (P(g, k) / max (C(g, 0)) 1) * Wh(k, 0), plus Bh(0, 0). -/
def poolHead (P : FVec Ideal S64x128 .f32) (C : FVec Ideal S64x1 .f32) (Wh : FVec Ideal S128x1 .f32)
    (Bh : FVec Ideal S1x1 .f32) : FVec Ideal S64x1 .f32 :=
  addf (Host.dotGeneral dot_S64x128_S128x1_S64x1_1_0_0_1_n_n none
      (Host.divf P (broadcastInDim S64x128 ![0, 1] bcast_S64x1_S64x128_0_1
        (maximumf C (broadcast S64x1 (Scalar.ofBits (F := Ideal) .f32 0x3F800000#32))))) Wh)
    (broadcastInDim S64x1 ![0, 1] bcast_S1x1_S64x1_0_1 Bh)

end Cert.Stages

end
-- ==== Proof.Region0.lean ====
/-
  Region 0: the first feature transform. Each of the ten grid points multiplies a block of 5000 rows of the
  input features by the whole 128 x 128 weight matrix, accumulating into zero; on the extended reals narrowing the
  operands' format is the identity, so entry (p, q) of a block is the sum over k of feature (p, k) times weight (k, q).
  The ten row blocks tile the 50000 x 128 result, which is therefore the dense layer of the whole input array.
-/
import proofs.«130122_j30812095381571_1_alg».proof.Proof.Gen.KernelIdeal.Frame
import proofs.«130122_j30812095381571_1_alg».proof.Proof.Gen.ReferenceIdeal.Read
import proofs.«130122_j30812095381571_1_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.Pipeline (Dat)

theorem r0_hz : (![0, 0] : Fin 2 → Nat) = fun _ => 0 := funext fun a => by fin_cases a <;> rfl

/-- The row coordinate of the left operand's index is the output's row. -/
theorem r0_lhs_0 (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The column coordinate of the right operand's index is the output's column. -/
theorem r0_rhs_1 (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's product at entry (p, q) of a block: the sum over k of x0(p, k) * x1(k, q). Narrowing the operands'
    format changes nothing on the extended reals, and the accumulator is the zero array. -/
theorem r0_pay_apply (x0 : FVec Ideal S5000x128 .f32) (x1 : FVec Ideal S128x128 .f32) (p : Fin 5000) (q : Fin 128) :
    k0_pay1 x0 x1 (ValueIdx.ix2 p q) = ∑ k : Fin 128, x0 (ValueIdx.ix2 p k) * x1 (ValueIdx.ix2 k q) := by
  unfold k0_pay1
  refine (Ideal.matmul_constant_zero_apply dot_S5000x128_S128x128_S5000x128_1_0_0_1_n_n none _ _ (ValueIdx.ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact r0_lhs_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (dot_S5000x128_S128x128_S5000x128_1_0_0_1_n_n.rhsIdx_val_of_single rfl _ _).trans hk
    | ⟨1, _⟩ => exact r0_rhs_1 _ _)
  rw [el, er]
  rfl

/-- The dense layer at entry (r, q): the sum over k of X(r, k) * W(k, q). -/
theorem r0_dense_apply (X : FVec Ideal Cert.ReferenceIdeal.S50000x128 .f32) (W : FVec Ideal Cert.ReferenceIdeal.S128x128 .f32)
    (r : Fin 50000) (q : Fin 128) :
    Cert.Stages.denseLayer X W (ValueIdx.ix2 r q) = ∑ k : Fin 128, X (ValueIdx.ix2 r k) * W (ValueIdx.ix2 k q) := by
  refine (Cert.ReferenceIdeal.Read.val_main_v32_apply X W (ValueIdx.ix2 r q)).trans ?_
  refine Finset.sum_congr rfl fun k _ => ?_
  have el : Cert.ReferenceIdeal.Read.lidx_main_v32 (ValueIdx.ix2 r q) k = ValueIdx.ix2 r k :=
    funext fun a => Fin.ext (by match a with | ⟨0, _⟩ => rfl | ⟨1, _⟩ => rfl)
  have er : Cert.ReferenceIdeal.Read.ridx_main_v32 (ValueIdx.ix2 r q) k = ValueIdx.ix2 k q :=
    funext fun a => Fin.ext (by match a with | ⟨0, _⟩ => rfl | ⟨1, _⟩ => rfl)
  rw [el, er]

-- the buffer contents a region is entered from: a parameter
variable (V : (c : Dev nD) → (b : Ref sig .tc) → Buf (Elt Ideal) ((c : Thread nD τ).loc b))

/-- The index maps, decided over the ten grid points: the feature window moves with the output window down the rows,
    neither moves along the columns, the weight window stays at block (0, 0), and the row block index is at most 9. -/
theorem r0_idx : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 9 :=
  (by decide +kernel : ∀ t : Fin grid0.N, _)

/-- Every one of the ten row blocks is some point's. -/
theorem r0_onto : ∀ b : Fin 10, ∃ t : Fin cfg0.N, win0_2.index t (0 : Fin 2) = b.val :=
  (by decide +kernel : ∀ b : Fin 10, ∃ t : Fin grid0.N, win0_2.index t (0 : Fin 2) = b.val)

/-- The feature block at point t, entry (p, k), is the feature array's entry (5000 * (row block of t) + p, k). -/
theorem r0_feat_apply (c : Dev nD) (t : Fin cfg0.N) (p : Fin 5000) (k : Fin 128) (r : Fin 50000)
    (hr : r.val = win0_2.index t (0 : Fin 2) * 5000 + p.val) :
    (iblk0 V c 0 t : Vec Ideal S5000x128 .f32) (ValueIdx.ix2 p k)
      = (V c main_arg0 : S50000x128.Idx → Elt Ideal .f32) (ValueIdx.ix2 r k) := by
  obtain ⟨e0, e1, e2, e3, e4, e5⟩ := r0_idx t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The weight block at every point is the whole weight matrix. -/
theorem r0_wt_apply (c : Dev nD) (t : Fin cfg0.N) (k : Fin 128) (q : Fin 128) :
    (iblk0 V c 1 t : Vec Ideal S128x128 .f32) (ValueIdx.ix2 k q)
      = (V c main_arg2 : S128x128.Idx → Elt Ideal .f32) (ValueIdx.ix2 k q) := by
  obtain ⟨e0, e1, e2, e3, e4, e5⟩ := r0_idx t
  unfold iblk0
  rw [View.read_apply]
  show V c main_arg2 _ = V c main_arg2 _
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- What point t writes back is block t of the dense layer of the whole arrays: entry (p, q) of the block is the sum
    over k of the feature block's (p, k) times the weight's (k, q), and the feature block's row p is row
    5000 * (row block of t) + p of the feature array, the row the output's rectangle puts entry (p, q) in. -/
theorem r0_flushed_eq (c : Dev nD) (t : Fin cfg0.N) :
    (dat0 V c).flushed 2 t = ((cfg0.win 2).blk t).view.read (Elt Ideal) (Cert.Stages.denseLayer (V c main_arg0) (V c main_arg2)) := by
  show (cfg0.win 2).cut (grid0.coords t) ((dat0 V c).after 2 t) = _
  rw [after0_2]
  unfold out0_2
  rw [View.canon_unit_zero r0_hz]
  simp only [View.ld_unit_zero (S := S5000x128) r0_hz, View.ld_unit_zero (S := S128x128) r0_hz]
  funext j
  obtain ⟨e0, e1, e2, e3, e4, e5⟩ := r0_idx t
  have hp : (j 0).val < 5000 := (j 0).isLt
  have hq : (j 1).val < 128 := (j 1).isLt
  have hr : win0_2.index t (0 : Fin 2) * 5000 + (j 0).val < 50000 := by omega
  have hx : (win0 2).xinj (grid0.coords t) j = (ValueIdx.ix2 (⟨(j 0).val, hp⟩ : Fin 5000) (⟨(j 1).val, hq⟩ : Fin 128) : S5000x128.Idx) :=
    funext fun a => Fin.ext (by match a with | ⟨0, _⟩ => rfl | ⟨1, _⟩ => rfl)
  have hy : ((View.whole main_v32).slice ((win0 2).rect t)).emb j
      = (ValueIdx.ix2 (⟨win0_2.index t (0 : Fin 2) * 5000 + (j 0).val, hr⟩ : Fin 50000) (⟨(j 1).val, hq⟩ : Fin 128) : S50000x128.Idx) :=
    funext fun a => Fin.ext (by
      match a with
      | ⟨0, _⟩ => show win0_2.index t (0 : Fin 2) * 5000 + 1 * (j 0).val = win0_2.index t (0 : Fin 2) * 5000 + (j 0).val; omega
      | ⟨1, _⟩ => show win0_2.index t (1 : Fin 2) * 128 + 1 * (j 1).val = (j 1).val; omega)
  show k0_pay1 (iblk0 V c 0 t) (iblk0 V c 1 t) ((win0 2).xinj (grid0.coords t) j)
    = Cert.Stages.denseLayer (V c main_arg0) (V c main_arg2) (((View.whole main_v32).slice ((win0 2).rect t)).emb j)
  rw [hx, hy]
  refine (r0_pay_apply (iblk0 V c 0 t) (iblk0 V c 1 t) _ _).trans ?_
  refine Eq.trans ?_ (r0_dense_apply (V c main_arg0) (V c main_arg2) _ _).symm
  refine Finset.sum_congr rfl fun k _ => ?_
  exact congrArg₂ (· * ·) (r0_feat_apply V c t ⟨(j 0).val, hp⟩ k ⟨win0_2.index t (0 : Fin 2) * 5000 + (j 0).val, hr⟩ rfl)
    (r0_wt_apply V c t k ⟨(j 1).val, hq⟩)

/-- An index of the result array is in point t's block iff each coordinate is in the block's range on its axis. -/
theorem r0_mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The ten row blocks cover the result array: row r lies in the block of index r / 5000. -/
theorem r0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := r0_onto ⟨(i 0).val / 5000, by omega⟩
  have q0 : win0_2.index t (0 : Fin 2) = (i 0).val / 5000 := ht
  obtain ⟨e0, e1, e2, e3, e4, e5⟩ := r0_idx t
  refine ⟨t, flush0_2 t, ?_⟩
  rw [r0_mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region is the dense layer of the feature array and the weight matrix as the region
    finds them. -/
theorem region0_arr (c : Dev nD) :
    (dat0 V c).arrAt 2 cfg0.N = Cert.Stages.denseLayer (V c main_arg0) (V c main_arg2) :=
  (dat0 V c).arrAt_eq_of_cover 2 (Cert.Stages.denseLayer (V c main_arg0) (V c main_arg2)) (fun t _ => r0_flushed_eq V c t) (r0_cover)

end Cert.KernelIdeal.Regions

end
-- ==== Proof.ChainB.lean ====
/-
  The fold through the program (part 2 of 4): the normalised edge weights (the product of the two end points'
  inverse square root degrees and the edge weight), and the first feature transform, whose region leaves the
  reference's product of the node features with the first weight matrix.
-/
import proofs.«130122_j30812095381571_1_alg».proof.Proof.ChainA
import proofs.«130122_j30812095381571_1_alg».proof.Proof.Stages
import proofs.«130122_j30812095381571_1_alg».proof.Proof.Region0

set_option maxRecDepth 16384

noncomputable section

namespace Cert.KernelIdeal.Chain

open Cert.KernelIdeal Cert.KernelIdeal.Gen Cert.KernelIdeal.Regions
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The edge normalisation, and the first feature transform -/

set_option maxHeartbeats 4000000 in
theorem L3_v31 (c : Dev nD) : W3 m ρ c (Proc.devRef .tc main_v31) = Cert.ReferenceIdeal.Read.val_main_v31 (x1 m c) (x8 m c) := by
  have e0 := L2_v5 m ρ c
  have e1 := L2_v6 m ρ c
  have e2 := L2_v8 m ρ c
  have e3 := L2_v15 m ρ c
  show StableHlo.after hostOps0_2 (W2 m ρ c) (Proc.devRef .tc main_v31) = _
  generalize W2 m ρ c = Wv at e0 e1 e2 e3 ⊢
  dsimp only [hostOps0_2]
  after_results
  rw [e0, e1, e2, e3]
  rfl

set_option maxHeartbeats 4000000 in
theorem L3_v5 (c : Dev nD) : W3 m ρ c (Proc.devRef .tc main_v5) = Cert.ReferenceIdeal.Read.val_main_v5 (x8 m c) := by
  have e0 := L2_v5 m ρ c
  show StableHlo.after hostOps0_2 (W2 m ρ c) (Proc.devRef .tc main_v5) = _
  generalize W2 m ρ c = Wv at e0 ⊢
  dsimp only [hostOps0_2]
  after_results
  exact e0

set_option maxHeartbeats 4000000 in
theorem L3_v6 (c : Dev nD) : W3 m ρ c (Proc.devRef .tc main_v6) = Cert.ReferenceIdeal.Read.val_main_v6 (x8 m c) := by
  have e0 := L2_v6 m ρ c
  show StableHlo.after hostOps0_2 (W2 m ρ c) (Proc.devRef .tc main_v6) = _
  generalize W2 m ρ c = Wv at e0 ⊢
  dsimp only [hostOps0_2]
  after_results
  exact e0

set_option maxHeartbeats 4000000 in
theorem L3_a0 (c : Dev nD) : W3 m ρ c (Proc.devRef .tc main_arg0) = x0 m c := by
  have e0 := L2_a0 m ρ c
  show StableHlo.after hostOps0_2 (W2 m ρ c) (Proc.devRef .tc main_arg0) = _
  generalize W2 m ρ c = Wv at e0 ⊢
  dsimp only [hostOps0_2]
  after_results
  exact e0

set_option maxHeartbeats 4000000 in
theorem L3_a2 (c : Dev nD) : W3 m ρ c (Proc.devRef .tc main_arg2) = x2 m c := by
  have e0 := L2_a2 m ρ c
  show StableHlo.after hostOps0_2 (W2 m ρ c) (Proc.devRef .tc main_arg2) = _
  generalize W2 m ρ c = Wv at e0 ⊢
  dsimp only [hostOps0_2]
  after_results
  exact e0

set_option maxHeartbeats 4000000 in
theorem L3_a3 (c : Dev nD) : W3 m ρ c (Proc.devRef .tc main_arg3) = x3 m c := by
  have e0 := L2_a3 m ρ c
  show StableHlo.after hostOps0_2 (W2 m ρ c) (Proc.devRef .tc main_arg3) = _
  generalize W2 m ρ c = Wv at e0 ⊢
  dsimp only [hostOps0_2]
  after_results
  exact e0

set_option maxHeartbeats 4000000 in
theorem L3_a4 (c : Dev nD) : W3 m ρ c (Proc.devRef .tc main_arg4) = x4 m c := by
  have e0 := L2_a4 m ρ c
  show StableHlo.after hostOps0_2 (W2 m ρ c) (Proc.devRef .tc main_arg4) = _
  generalize W2 m ρ c = Wv at e0 ⊢
  dsimp only [hostOps0_2]
  after_results
  exact e0

set_option maxHeartbeats 4000000 in
theorem L3_a5 (c : Dev nD) : W3 m ρ c (Proc.devRef .tc main_arg5) = x5 m c := by
  have e0 := L2_a5 m ρ c
  show StableHlo.after hostOps0_2 (W2 m ρ c) (Proc.devRef .tc main_arg5) = _
  generalize W2 m ρ c = Wv at e0 ⊢
  dsimp only [hostOps0_2]
  after_results
  exact e0

set_option maxHeartbeats 4000000 in
theorem L3_a6 (c : Dev nD) : W3 m ρ c (Proc.devRef .tc main_arg6) = x6 m c := by
  have e0 := L2_a6 m ρ c
  show StableHlo.after hostOps0_2 (W2 m ρ c) (Proc.devRef .tc main_arg6) = _
  generalize W2 m ρ c = Wv at e0 ⊢
  dsimp only [hostOps0_2]
  after_results
  exact e0

set_option maxHeartbeats 4000000 in
theorem L3_a7 (c : Dev nD) : W3 m ρ c (Proc.devRef .tc main_arg7) = x7 m c := by
  have e0 := L2_a7 m ρ c
  show StableHlo.after hostOps0_2 (W2 m ρ c) (Proc.devRef .tc main_arg7) = _
  generalize W2 m ρ c = Wv at e0 ⊢
  dsimp only [hostOps0_2]
  after_results
  exact e0

set_option maxHeartbeats 4000000 in
theorem L3_a9 (c : Dev nD) : W3 m ρ c (Proc.devRef .tc main_arg9) = x9 m c := by
  have e0 := L2_a9 m ρ c
  show StableHlo.after hostOps0_2 (W2 m ρ c) (Proc.devRef .tc main_arg9) = _
  generalize W2 m ρ c = Wv at e0 ⊢
  dsimp only [hostOps0_2]
  after_results
  exact e0

theorem L4_v32 (c : Dev nD) : W4 m ρ c (Proc.devRef .tc main_v32) = Cert.ReferenceIdeal.Read.val_main_v32 (x0 m c) (x2 m c) := by
  refine (W4_arr m ρ c 2).trans ((region0_arr (V3 m ρ) c).trans ?_)
  show Cert.Stages.denseLayer (W3 m ρ c (Proc.devRef .tc main_arg0)) (W3 m ρ c (Proc.devRef .tc main_arg2)) = _
  rw [L3_a0, L3_a2]
  rfl

theorem L4_v31 (c : Dev nD) : W4 m ρ c (Proc.devRef .tc main_v31) = Cert.ReferenceIdeal.Read.val_main_v31 (x1 m c) (x8 m c) := by
  exact (W4_of_ne m ρ c main_v31 (by decide)).trans (L3_v31 m ρ c)

theorem L4_v5 (c : Dev nD) : W4 m ρ c (Proc.devRef .tc main_v5) = Cert.ReferenceIdeal.Read.val_main_v5 (x8 m c) := by
  exact (W4_of_ne m ρ c main_v5 (by decide)).trans (L3_v5 m ρ c)

theorem L4_v6 (c : Dev nD) : W4 m ρ c (Proc.devRef .tc main_v6) = Cert.ReferenceIdeal.Read.val_main_v6 (x8 m c) := by
  exact (W4_of_ne m ρ c main_v6 (by decide)).trans (L3_v6 m ρ c)

theorem L4_a3 (c : Dev nD) : W4 m ρ c (Proc.devRef .tc main_arg3) = x3 m c := by
  exact (W4_of_ne m ρ c main_arg3 (by decide)).trans (L3_a3 m ρ c)

theorem L4_a4 (c : Dev nD) : W4 m ρ c (Proc.devRef .tc main_arg4) = x4 m c := by
  exact (W4_of_ne m ρ c main_arg4 (by decide)).trans (L3_a4 m ρ c)

theorem L4_a5 (c : Dev nD) : W4 m ρ c (Proc.devRef .tc main_arg5) = x5 m c := by
  exact (W4_of_ne m ρ c main_arg5 (by decide)).trans (L3_a5 m ρ c)

theorem L4_a6 (c : Dev nD) : W4 m ρ c (Proc.devRef .tc main_arg6) = x6 m c := by
  exact (W4_of_ne m ρ c main_arg6 (by decide)).trans (L3_a6 m ρ c)

theorem L4_a7 (c : Dev nD) : W4 m ρ c (Proc.devRef .tc main_arg7) = x7 m c := by
  exact (W4_of_ne m ρ c main_arg7 (by decide)).trans (L3_a7 m ρ c)

theorem L4_a9 (c : Dev nD) : W4 m ρ c (Proc.devRef .tc main_arg9) = x9 m c := by
  exact (W4_of_ne m ρ c main_arg9 (by decide)).trans (L3_a9 m ρ c)

end Cert.KernelIdeal.Chain

end
-- ==== Proof.Region1.lean ====
/-
  Region 1: the bias row added to every row of a 50000 x 128 array, followed by the positive part, computed
  block by block (ten blocks of 5000 rows; the bias is the same 1 x 128 row at every block), is ONE whole-array
  function of the two input arrays: entry (r, q) of the output is max (A(r, q) + B(0, q)) 0.
-/
import proofs.«130122_j30812095381571_1_alg».proof.Proof.Gen.KernelIdeal.Frame
import proofs.«130122_j30812095381571_1_alg».proof.Proof.Gen.ReferenceIdeal.Read
import proofs.«130122_j30812095381571_1_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.Pipeline (Dat)
open Idealize.ShloMosaic.ValueIdx

-- the buffer contents a region is entered from: a parameter
variable (V : (c : Dev nD) → (b : Ref sig .tc) → Buf (Elt Ideal) ((c : Thread nD τ).loc b))

/-- A [128] vector reshaped to [1, 128] is the vector broadcast along a new leading unit axis: entry (0, q) is b q
    on both sides. -/
theorem row_reshape_eq (b : FVec Ideal Cert.ReferenceIdeal.S128 .f32) :
    shapeCast S1x128 b shapeCasts_S128_S1x128 = broadcastInDim Cert.ReferenceIdeal.S1x128 ![1] Cert.ReferenceIdeal.Gen.bcast_S128_S1x128_1 b := by
  funext j
  obtain ⟨u, q, rfl⟩ : ∃ (u : Fin 1) (q : Fin 128), j = ix2 u q := ⟨j 0, j 1, eq_ix2 j⟩
  refine (shapeCast_a_1a_apply b shapeCasts_S128_S1x128 u q).trans ?_
  refine (broadcastInDim_apply _ Cert.ReferenceIdeal.Gen.bcast_S128_S1x128_1 b (ix2 u q) (ix1 q) (fun a => match a with
    | ⟨0, _⟩ => by show q.val = if (128 : Nat) = 1 then 0 else q.val; rw [if_neg (by decide)])).symm

/-- The body's arithmetic at entry (p, q) of a block: the block's entry plus the bias row's entry q, then the
    maximum with zero. -/
theorem r1_pay_apply (x0 : Vec Ideal S5000x128 .f32) (x1 : Vec Ideal S1x128 .f32) (p : Fin 5000) (q : Fin 128) :
    k1_pay1 x0 x1 (ix2 p q)
      = FloatOps.maximumf (FloatOps.addf (x0 (ix2 p q)) (x1 (ix2 (0 : Fin 1) q))) (Ideal.ofBits .f32 0x00000000#32) := by
  unfold k1_pay1
  show FloatOps.maximumf (FloatOps.addf (shapeCast _ _ _ (ix2 p q)) (broadcastTo _ (shapeCast _ _ _) _ (ix2 p q))) _ = _
  rw [shapeCast_self, shapeCast_self, broadcastTo_1b_ab_apply]
  rfl

/-- The stage function at entry (r, q) of the whole array. -/
theorem r1_stage_apply (A : FVec Ideal Cert.ReferenceIdeal.S50000x128 .f32) (B : FVec Ideal Cert.ReferenceIdeal.S1x128 .f32)
    (r : Fin 50000) (q : Fin 128) :
    Cert.Stages.biasRelu A B (ix2 r q)
      = FloatOps.maximumf (FloatOps.addf (A (ix2 r q)) (B (ix2 (0 : Fin 1) q))) (Ideal.ofBits .f32 0x00000000#32) := by
  unfold Cert.Stages.biasRelu
  show FloatOps.maximumf (FloatOps.addf (A (ix2 r q))
      (broadcastInDim Cert.ReferenceIdeal.S50000x128 ![0, 1] Cert.ReferenceIdeal.Gen.bcast_S1x128_S50000x128_0_1 B (ix2 r q)))
      (broadcastInDim Cert.ReferenceIdeal.S50000x128 ![] Cert.ReferenceIdeal.Gen.bcast_S_S50000x128 (constant (F := Ideal) Cert.ReferenceIdeal.S_ .f32 0x00000000#32) (ix2 r q)) = _
  rw [broadcastInDim_apply _ Cert.ReferenceIdeal.Gen.bcast_S1x128_S50000x128_0_1 B (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)]),
    broadcastInDim_apply _ Cert.ReferenceIdeal.Gen.bcast_S_S50000x128 (constant (F := Ideal) Cert.ReferenceIdeal.S_ .f32 0x00000000#32) (ix2 r q) ix0 (fun a => a.elim0)]
  rfl

/-- Offsets written as a vector are the zero function. -/
theorem r1_hz : (![0, 0] : Fin 2 → Nat) = fun _ => 0 := funext fun a => by fin_cases a <;> rfl

/-- The index maps, decided once over the ten grid points: the input rows' block moves with the output's block, the
    bias window always sits at block (0, 0), the column block index is 0, and the row block index is at most 9. -/
theorem r1_idx : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some grid point's output block. -/
theorem r1_idx_onto : ∀ q0 : Fin 10, ∃ t : Fin cfg1.N, win1_2.index t = ![q0.val, 0] :=
  (by decide +kernel : ∀ q0 : Fin 10, ∃ t : Fin grid1.N, win1_2.index t = ![q0.val, 0])

/-- The rows' input block at point t, entry (p, q), is the input array at row 5000 * (block index) + p, column q. -/
theorem r1_in0 (c : Dev nD) (t : Fin cfg1.N) (p : Fin 5000) (q : Fin 128) (r : Fin 50000)
    (hr : r.val = win1_2.index t (0 : Fin 2) * 5000 + p.val) :
    (iblk1 V c 0 t : Vec Ideal S5000x128 .f32) (ix2 p q) = (V c main_v45 : S50000x128.Idx → Elt Ideal .f32) (ix2 r q) := by
  obtain ⟨e0, e1, e2, e3, e4, e5⟩ := r1_idx t
  unfold iblk1
  rw [View.read_apply]
  show V c main_v45 _ = V c main_v45 _
  congr 1
  funext a
  apply Fin.ext
  match a with
  | ⟨0, _⟩ => show win1_0.index t (0 : Fin 2) * 5000 + 1 * p.val = r.val; omega
  | ⟨1, _⟩ => show win1_0.index t (1 : Fin 2) * 128 + 1 * q.val = q.val; omega

/-- The bias window's block at every point is the whole 1 x 128 bias array. -/
theorem r1_in1 (c : Dev nD) (t : Fin cfg1.N) (u : Fin 1) (q : Fin 128) :
    (iblk1 V c 1 t : Vec Ideal S1x128 .f32) (ix2 u q) = (V c main_v46 : S1x128.Idx → Elt Ideal .f32) (ix2 u q) := by
  obtain ⟨e0, e1, e2, e3, e4, e5⟩ := r1_idx t
  unfold iblk1
  rw [View.read_apply]
  show V c main_v46 _ = V c main_v46 _
  congr 1
  funext a
  apply Fin.ext
  match a with
  | ⟨0, _⟩ => show win1_1.index t (0 : Fin 2) * 1 + 1 * u.val = u.val; omega
  | ⟨1, _⟩ => show win1_1.index t (1 : Fin 2) * 128 + 1 * q.val = q.val; omega

/-- What point t writes back is block t of the stage function of the two input arrays. -/
theorem r1_flushed_eq (c : Dev nD) (t : Fin cfg1.N) :
    (dat1 V c).flushed 2 t
      = ((cfg1.win 2).blk t).view.read (Elt Ideal) (Cert.Stages.biasRelu (V c main_v45) (V c main_v46)) := by
  show (cfg1.win 2).cut (grid1.coords t) ((dat1 V c).after 2 t) = _
  rw [after1_2]
  unfold out1_2
  rw [View.canon_unit_zero r1_hz]
  simp only [View.ld_unit_zero (S := S5000x128) r1_hz, View.ld_unit_zero (S := S1x128) r1_hz]
  obtain ⟨e0, e1, e2, e3, e4, e5⟩ := r1_idx t
  funext j
  obtain ⟨p, q, rfl⟩ : ∃ (p : Fin 5000) (q : Fin 128), j = ix2 p q := ⟨j 0, j 1, eq_ix2 j⟩
  have hr : win1_2.index t (0 : Fin 2) * 5000 + p.val < 50000 := by have := p.isLt; omega
  have hemb : ((cfg1.win 2).blk t).view.emb (ix2 p q)
      = ix2 (⟨win1_2.index t (0 : Fin 2) * 5000 + p.val, hr⟩ : Fin 50000) q := by
    funext a
    apply Fin.ext
    match a with
    | ⟨0, _⟩ => show win1_2.index t (0 : Fin 2) * 5000 + 1 * p.val = win1_2.index t (0 : Fin 2) * 5000 + p.val; omega
    | ⟨1, _⟩ => show win1_2.index t (1 : Fin 2) * 128 + 1 * q.val = q.val; omega
  show k1_pay1 (iblk1 V c 0 t) (iblk1 V c 1 t) (ix2 p q)
      = Cert.Stages.biasRelu (V c main_v45) (V c main_v46) (((cfg1.win 2).blk t).view.emb (ix2 p q))
  refine (r1_pay_apply (iblk1 V c 0 t) (iblk1 V c 1 t) p q).trans ?_
  refine Eq.trans ?_ (congrArg (Cert.Stages.biasRelu (V c main_v45) (V c main_v46)) hemb).symm
  refine Eq.trans ?_ (r1_stage_apply (V c main_v45) (V c main_v46) ⟨win1_2.index t (0 : Fin 2) * 5000 + p.val, hr⟩ q).symm
  rw [r1_in0 V c t p q ⟨win1_2.index t (0 : Fin 2) * 5000 + p.val, hr⟩ rfl, r1_in1 V c t (0 : Fin 1) q]

/-- An index of the output array is in point t's block iff each coordinate is in the block's range on its axis. -/
theorem r1_mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- The ten output blocks cover the array: row r lies in block r / 5000. -/
theorem r1_cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := r1_idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [r1_mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The output array after the region is the stage function of the two input arrays. -/
theorem region1_arr (c : Dev nD) :
    (dat1 V c).arrAt 2 cfg1.N = Cert.Stages.biasRelu (V c main_v45) (V c main_v46) :=
  (dat1 V c).arrAt_eq_of_cover 2 (Cert.Stages.biasRelu (V c main_v45) (V c main_v46))
    (fun t _ => r1_flushed_eq V c t) r1_cover

end Cert.KernelIdeal.Regions

end
-- ==== Proof.Region2.lean ====
/-
  Region 2: the second feature transform. Each of the ten grid points multiplies a block of 5000 rows of the
  input features by the whole 128 x 128 weight matrix, accumulating into zero; on the extended reals narrowing the
  operands' format is the identity, so entry (p, q) of a block is the sum over k of feature (p, k) times weight (k, q).
  The ten row blocks tile the 50000 x 128 result, which is therefore the dense layer of the whole input array.
-/
import proofs.«130122_j30812095381571_1_alg».proof.Proof.Gen.KernelIdeal.Frame
import proofs.«130122_j30812095381571_1_alg».proof.Proof.Gen.ReferenceIdeal.Read
import proofs.«130122_j30812095381571_1_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.Pipeline (Dat)

theorem r2_hz : (![0, 0] : Fin 2 → Nat) = fun _ => 0 := funext fun a => by fin_cases a <;> rfl

/-- The row coordinate of the left operand's index is the output's row. -/
theorem r2_lhs_0 (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The column coordinate of the right operand's index is the output's column. -/
theorem r2_rhs_1 (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's product at entry (p, q) of a block: the sum over k of x0(p, k) * x1(k, q). Narrowing the operands'
    format changes nothing on the extended reals, and the accumulator is the zero array. -/
theorem r2_pay_apply (x0 : FVec Ideal S5000x128 .f32) (x1 : FVec Ideal S128x128 .f32) (p : Fin 5000) (q : Fin 128) :
    k2_pay1 x0 x1 (ValueIdx.ix2 p q) = ∑ k : Fin 128, x0 (ValueIdx.ix2 p k) * x1 (ValueIdx.ix2 k q) := by
  unfold k2_pay1
  rw [shapeCast_self]
  refine (Ideal.matmul_constant_zero_apply dot_S5000x128_S128x128_S5000x128_1_0_0_1_n_n none _ _ (ValueIdx.ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact r2_lhs_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (dot_S5000x128_S128x128_S5000x128_1_0_0_1_n_n.rhsIdx_val_of_single rfl _ _).trans hk
    | ⟨1, _⟩ => exact r2_rhs_1 _ _)
  rw [el, er]
  rfl

/-- The dense layer at entry (r, q): the sum over k of X(r, k) * W(k, q). -/
theorem r2_dense_apply (X : FVec Ideal Cert.ReferenceIdeal.S50000x128 .f32) (W : FVec Ideal Cert.ReferenceIdeal.S128x128 .f32)
    (r : Fin 50000) (q : Fin 128) :
    Cert.Stages.denseLayer X W (ValueIdx.ix2 r q) = ∑ k : Fin 128, X (ValueIdx.ix2 r k) * W (ValueIdx.ix2 k q) := by
  refine (Cert.ReferenceIdeal.Read.val_main_v32_apply X W (ValueIdx.ix2 r q)).trans ?_
  refine Finset.sum_congr rfl fun k _ => ?_
  have el : Cert.ReferenceIdeal.Read.lidx_main_v32 (ValueIdx.ix2 r q) k = ValueIdx.ix2 r k :=
    funext fun a => Fin.ext (by match a with | ⟨0, _⟩ => rfl | ⟨1, _⟩ => rfl)
  have er : Cert.ReferenceIdeal.Read.ridx_main_v32 (ValueIdx.ix2 r q) k = ValueIdx.ix2 k q :=
    funext fun a => Fin.ext (by match a with | ⟨0, _⟩ => rfl | ⟨1, _⟩ => rfl)
  rw [el, er]

-- the buffer contents a region is entered from: a parameter
variable (V : (c : Dev nD) → (b : Ref sig .tc) → Buf (Elt Ideal) ((c : Thread nD τ).loc b))

/-- The index maps, decided over the ten grid points: the feature window moves with the output window down the rows,
    neither moves along the columns, the weight window stays at block (0, 0), and the row block index is at most 9. -/
theorem r2_idx : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) ≤ 9 :=
  (by decide +kernel : ∀ t : Fin grid2.N, _)

/-- Every one of the ten row blocks is some point's. -/
theorem r2_onto : ∀ b : Fin 10, ∃ t : Fin cfg2.N, win2_2.index t (0 : Fin 2) = b.val :=
  (by decide +kernel : ∀ b : Fin 10, ∃ t : Fin grid2.N, win2_2.index t (0 : Fin 2) = b.val)

/-- The feature block at point t, entry (p, k), is the feature array's entry (5000 * (row block of t) + p, k). -/
theorem r2_feat_apply (c : Dev nD) (t : Fin cfg2.N) (p : Fin 5000) (k : Fin 128) (r : Fin 50000)
    (hr : r.val = win2_2.index t (0 : Fin 2) * 5000 + p.val) :
    (iblk2 V c 0 t : Vec Ideal S5000x128 .f32) (ValueIdx.ix2 p k)
      = (V c main_v47 : S50000x128.Idx → Elt Ideal .f32) (ValueIdx.ix2 r k) := by
  obtain ⟨e0, e1, e2, e3, e4, e5⟩ := r2_idx t
  unfold iblk2
  rw [View.read_apply]
  show V c main_v47 _ = V c main_v47 _
  congr 1
  funext a
  apply Fin.ext
  match a with
  | ⟨0, _⟩ => show win2_0.index t (0 : Fin 2) * 5000 + 1 * p.val = r.val; omega
  | ⟨1, _⟩ => show win2_0.index t (1 : Fin 2) * 128 + 1 * k.val = k.val; omega

/-- The weight block at every point is the whole weight matrix. -/
theorem r2_wt_apply (c : Dev nD) (t : Fin cfg2.N) (k : Fin 128) (q : Fin 128) :
    (iblk2 V c 1 t : Vec Ideal S128x128 .f32) (ValueIdx.ix2 k q)
      = (V c main_arg4 : S128x128.Idx → Elt Ideal .f32) (ValueIdx.ix2 k q) := by
  obtain ⟨e0, e1, e2, e3, e4, e5⟩ := r2_idx t
  unfold iblk2
  rw [View.read_apply]
  show V c main_arg4 _ = V c main_arg4 _
  congr 1
  funext a
  apply Fin.ext
  match a with
  | ⟨0, _⟩ => show win2_1.index t (0 : Fin 2) * 128 + 1 * k.val = k.val; omega
  | ⟨1, _⟩ => show win2_1.index t (1 : Fin 2) * 128 + 1 * q.val = q.val; omega

/-- What point t writes back is block t of the dense layer of the whole arrays: entry (p, q) of the block is the sum
    over k of the feature block's (p, k) times the weight's (k, q), and the feature block's row p is row
    5000 * (row block of t) + p of the feature array, the row the output's rectangle puts entry (p, q) in. -/
theorem r2_flushed_eq (c : Dev nD) (t : Fin cfg2.N) :
    (dat2 V c).flushed 2 t = ((cfg2.win 2).blk t).view.read (Elt Ideal) (Cert.Stages.denseLayer (V c main_v47) (V c main_arg4)) := by
  show (cfg2.win 2).cut (grid2.coords t) ((dat2 V c).after 2 t) = _
  rw [after2_2]
  unfold out2_2
  rw [View.canon_unit_zero r2_hz]
  simp only [View.ld_unit_zero (S := S5000x128) r2_hz, View.ld_unit_zero (S := S128x128) r2_hz]
  funext j
  obtain ⟨e0, e1, e2, e3, e4, e5⟩ := r2_idx t
  have hp : (j 0).val < 5000 := (j 0).isLt
  have hq : (j 1).val < 128 := (j 1).isLt
  have hr : win2_2.index t (0 : Fin 2) * 5000 + (j 0).val < 50000 := by omega
  have hx : (win2 2).xinj (grid2.coords t) j = (ValueIdx.ix2 (⟨(j 0).val, hp⟩ : Fin 5000) (⟨(j 1).val, hq⟩ : Fin 128) : S5000x128.Idx) :=
    funext fun a => Fin.ext (by match a with | ⟨0, _⟩ => rfl | ⟨1, _⟩ => rfl)
  have hy : ((View.whole main_v48).slice ((win2 2).rect t)).emb j
      = (ValueIdx.ix2 (⟨win2_2.index t (0 : Fin 2) * 5000 + (j 0).val, hr⟩ : Fin 50000) (⟨(j 1).val, hq⟩ : Fin 128) : S50000x128.Idx) :=
    funext fun a => Fin.ext (by
      match a with
      | ⟨0, _⟩ => show win2_2.index t (0 : Fin 2) * 5000 + 1 * (j 0).val = win2_2.index t (0 : Fin 2) * 5000 + (j 0).val; omega
      | ⟨1, _⟩ => show win2_2.index t (1 : Fin 2) * 128 + 1 * (j 1).val = (j 1).val; omega)
  show k2_pay1 (iblk2 V c 0 t) (iblk2 V c 1 t) ((win2 2).xinj (grid2.coords t) j)
    = Cert.Stages.denseLayer (V c main_v47) (V c main_arg4) (((View.whole main_v48).slice ((win2 2).rect t)).emb j)
  rw [hx, hy]
  refine (r2_pay_apply (iblk2 V c 0 t) (iblk2 V c 1 t) _ _).trans ?_
  refine Eq.trans ?_ (r2_dense_apply (V c main_v47) (V c main_arg4) _ _).symm
  refine Finset.sum_congr rfl fun k _ => ?_
  exact congrArg₂ (· * ·) (r2_feat_apply V c t ⟨(j 0).val, hp⟩ k ⟨win2_2.index t (0 : Fin 2) * 5000 + (j 0).val, hr⟩ rfl)
    (r2_wt_apply V c t k ⟨(j 1).val, hq⟩)

/-- An index of the result array is in point t's block iff each coordinate is in the block's range on its axis. -/
theorem r2_mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- The ten row blocks cover the result array: row r lies in the block of index r / 5000. -/
theorem r2_cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := r2_onto ⟨(i 0).val / 5000, by omega⟩
  have q0 : win2_2.index t (0 : Fin 2) = (i 0).val / 5000 := ht
  obtain ⟨e0, e1, e2, e3, e4, e5⟩ := r2_idx t
  refine ⟨t, flush2_2 t, ?_⟩
  rw [r2_mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the region is the dense layer of the feature array and the weight matrix as the region
    finds them. -/
theorem region2_arr (c : Dev nD) :
    (dat2 V c).arrAt 2 cfg2.N = Cert.Stages.denseLayer (V c main_v47) (V c main_arg4) :=
  (dat2 V c).arrAt_eq_of_cover 2 (Cert.Stages.denseLayer (V c main_v47) (V c main_arg4)) (fun t _ => r2_flushed_eq V c t) (r2_cover)

end Cert.KernelIdeal.Regions

end
-- ==== Proof.ChainC.lean ====
/-
  The fold through the program (part 3 of 4): the first aggregation (each edge's source row scaled by the edge's
  normalised weight, summed onto the target node), the first bias and positive part, and the second feature
  transform.  The regions leave the reference's own stages, so every live buffer stays a stage function of the
  argument arrays.
-/
import proofs.«130122_j30812095381571_1_alg».proof.Proof.ChainB
import proofs.«130122_j30812095381571_1_alg».proof.Proof.Region1
import proofs.«130122_j30812095381571_1_alg».proof.Proof.Region2

set_option maxRecDepth 16384

noncomputable section

namespace Cert.KernelIdeal.Chain

open Cert.KernelIdeal Cert.KernelIdeal.Gen Cert.KernelIdeal.Regions
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first aggregation (gather along the source nodes, scale, scatter-add onto the target nodes), the first bias and positive part, the second feature transform -/

set_option maxHeartbeats 4000000 in
theorem L5_v45 (c : Dev nD) : W5 m ρ c (Proc.devRef .tc main_v45) = Cert.ReferenceIdeal.Read.val_main_v45 (x0 m c) (x1 m c) (x2 m c) (x8 m c) := by
  have e0 := L4_v31 m ρ c
  have e1 := L4_v5 m ρ c
  have e2 := L4_v6 m ρ c
  have e3 := L4_v32 m ρ c
  show StableHlo.after hostOps1 (W4 m ρ c) (Proc.devRef .tc main_v45) = _
  generalize W4 m ρ c = Wv at e0 e1 e2 e3 ⊢
  dsimp only [hostOps1]
  after_results
  rw [e0, e1, e2, e3]
  rfl

set_option maxHeartbeats 4000000 in
theorem L5_v46 (c : Dev nD) : W5 m ρ c (Proc.devRef .tc main_v46) = Cert.ReferenceIdeal.Read.val_main_v46 (x3 m c) := by
  have e0 := L4_a3 m ρ c
  show StableHlo.after hostOps1 (W4 m ρ c) (Proc.devRef .tc main_v46) = _
  generalize W4 m ρ c = Wv at e0 ⊢
  dsimp only [hostOps1]
  after_results
  rw [e0]
  exact row_reshape_eq (x3 m c)

set_option maxHeartbeats 4000000 in
theorem L5_v31 (c : Dev nD) : W5 m ρ c (Proc.devRef .tc main_v31) = Cert.ReferenceIdeal.Read.val_main_v31 (x1 m c) (x8 m c) := by
  have e0 := L4_v31 m ρ c
  show StableHlo.after hostOps1 (W4 m ρ c) (Proc.devRef .tc main_v31) = _
  generalize W4 m ρ c = Wv at e0 ⊢
  dsimp only [hostOps1]
  after_results
  exact e0

set_option maxHeartbeats 4000000 in
theorem L5_v5 (c : Dev nD) : W5 m ρ c (Proc.devRef .tc main_v5) = Cert.ReferenceIdeal.Read.val_main_v5 (x8 m c) := by
  have e0 := L4_v5 m ρ c
  show StableHlo.after hostOps1 (W4 m ρ c) (Proc.devRef .tc main_v5) = _
  generalize W4 m ρ c = Wv at e0 ⊢
  dsimp only [hostOps1]
  after_results
  exact e0

set_option maxHeartbeats 4000000 in
theorem L5_v6 (c : Dev nD) : W5 m ρ c (Proc.devRef .tc main_v6) = Cert.ReferenceIdeal.Read.val_main_v6 (x8 m c) := by
  have e0 := L4_v6 m ρ c
  show StableHlo.after hostOps1 (W4 m ρ c) (Proc.devRef .tc main_v6) = _
  generalize W4 m ρ c = Wv at e0 ⊢
  dsimp only [hostOps1]
  after_results
  exact e0

set_option maxHeartbeats 4000000 in
theorem L5_a4 (c : Dev nD) : W5 m ρ c (Proc.devRef .tc main_arg4) = x4 m c := by
  have e0 := L4_a4 m ρ c
  show StableHlo.after hostOps1 (W4 m ρ c) (Proc.devRef .tc main_arg4) = _
  generalize W4 m ρ c = Wv at e0 ⊢
  dsimp only [hostOps1]
  after_results
  exact e0

set_option maxHeartbeats 4000000 in
theorem L5_a5 (c : Dev nD) : W5 m ρ c (Proc.devRef .tc main_arg5) = x5 m c := by
  have e0 := L4_a5 m ρ c
  show StableHlo.after hostOps1 (W4 m ρ c) (Proc.devRef .tc main_arg5) = _
  generalize W4 m ρ c = Wv at e0 ⊢
  dsimp only [hostOps1]
  after_results
  exact e0

set_option maxHeartbeats 4000000 in
theorem L5_a6 (c : Dev nD) : W5 m ρ c (Proc.devRef .tc main_arg6) = x6 m c := by
  have e0 := L4_a6 m ρ c
  show StableHlo.after hostOps1 (W4 m ρ c) (Proc.devRef .tc main_arg6) = _
  generalize W4 m ρ c = Wv at e0 ⊢
  dsimp only [hostOps1]
  after_results
  exact e0

set_option maxHeartbeats 4000000 in
theorem L5_a7 (c : Dev nD) : W5 m ρ c (Proc.devRef .tc main_arg7) = x7 m c := by
  have e0 := L4_a7 m ρ c
  show StableHlo.after hostOps1 (W4 m ρ c) (Proc.devRef .tc main_arg7) = _
  generalize W4 m ρ c = Wv at e0 ⊢
  dsimp only [hostOps1]
  after_results
  exact e0

set_option maxHeartbeats 4000000 in
theorem L5_a9 (c : Dev nD) : W5 m ρ c (Proc.devRef .tc main_arg9) = x9 m c := by
  have e0 := L4_a9 m ρ c
  show StableHlo.after hostOps1 (W4 m ρ c) (Proc.devRef .tc main_arg9) = _
  generalize W4 m ρ c = Wv at e0 ⊢
  dsimp only [hostOps1]
  after_results
  exact e0

theorem L6_v47 (c : Dev nD) : W6 m ρ c (Proc.devRef .tc main_v47) = Cert.ReferenceIdeal.Read.val_main_v49 (x0 m c) (x1 m c) (x2 m c) (x3 m c) (x8 m c) := by
  refine (W6_arr m ρ c 2).trans ((region1_arr (V5 m ρ) c).trans ?_)
  show Cert.Stages.biasRelu (W5 m ρ c (Proc.devRef .tc main_v45)) (W5 m ρ c (Proc.devRef .tc main_v46)) = _
  rw [L5_v45, L5_v46]
  rfl

theorem L6_v31 (c : Dev nD) : W6 m ρ c (Proc.devRef .tc main_v31) = Cert.ReferenceIdeal.Read.val_main_v31 (x1 m c) (x8 m c) := by
  exact (W6_of_ne m ρ c main_v31 (by decide)).trans (L5_v31 m ρ c)

theorem L6_v5 (c : Dev nD) : W6 m ρ c (Proc.devRef .tc main_v5) = Cert.ReferenceIdeal.Read.val_main_v5 (x8 m c) := by
  exact (W6_of_ne m ρ c main_v5 (by decide)).trans (L5_v5 m ρ c)

theorem L6_v6 (c : Dev nD) : W6 m ρ c (Proc.devRef .tc main_v6) = Cert.ReferenceIdeal.Read.val_main_v6 (x8 m c) := by
  exact (W6_of_ne m ρ c main_v6 (by decide)).trans (L5_v6 m ρ c)

theorem L6_a4 (c : Dev nD) : W6 m ρ c (Proc.devRef .tc main_arg4) = x4 m c := by
  exact (W6_of_ne m ρ c main_arg4 (by decide)).trans (L5_a4 m ρ c)

theorem L6_a5 (c : Dev nD) : W6 m ρ c (Proc.devRef .tc main_arg5) = x5 m c := by
  exact (W6_of_ne m ρ c main_arg5 (by decide)).trans (L5_a5 m ρ c)

theorem L6_a6 (c : Dev nD) : W6 m ρ c (Proc.devRef .tc main_arg6) = x6 m c := by
  exact (W6_of_ne m ρ c main_arg6 (by decide)).trans (L5_a6 m ρ c)

theorem L6_a7 (c : Dev nD) : W6 m ρ c (Proc.devRef .tc main_arg7) = x7 m c := by
  exact (W6_of_ne m ρ c main_arg7 (by decide)).trans (L5_a7 m ρ c)

theorem L6_a9 (c : Dev nD) : W6 m ρ c (Proc.devRef .tc main_arg9) = x9 m c := by
  exact (W6_of_ne m ρ c main_arg9 (by decide)).trans (L5_a9 m ρ c)

theorem L7_v48 (c : Dev nD) : W7 m ρ c (Proc.devRef .tc main_v48) = Cert.ReferenceIdeal.Read.val_main_v50 (x0 m c) (x1 m c) (x2 m c) (x3 m c) (x4 m c) (x8 m c) := by
  refine (W7_arr m ρ c 2).trans ((region2_arr (V6 m ρ) c).trans ?_)
  show Cert.Stages.denseLayer (W6 m ρ c (Proc.devRef .tc main_v47)) (W6 m ρ c (Proc.devRef .tc main_arg4)) = _
  rw [L6_v47, L6_a4]
  rfl

theorem L7_v31 (c : Dev nD) : W7 m ρ c (Proc.devRef .tc main_v31) = Cert.ReferenceIdeal.Read.val_main_v31 (x1 m c) (x8 m c) := by
  exact (W7_of_ne m ρ c main_v31 (by decide)).trans (L6_v31 m ρ c)

theorem L7_v5 (c : Dev nD) : W7 m ρ c (Proc.devRef .tc main_v5) = Cert.ReferenceIdeal.Read.val_main_v5 (x8 m c) := by
  exact (W7_of_ne m ρ c main_v5 (by decide)).trans (L6_v5 m ρ c)

theorem L7_v6 (c : Dev nD) : W7 m ρ c (Proc.devRef .tc main_v6) = Cert.ReferenceIdeal.Read.val_main_v6 (x8 m c) := by
  exact (W7_of_ne m ρ c main_v6 (by decide)).trans (L6_v6 m ρ c)

theorem L7_a5 (c : Dev nD) : W7 m ρ c (Proc.devRef .tc main_arg5) = x5 m c := by
  exact (W7_of_ne m ρ c main_arg5 (by decide)).trans (L6_a5 m ρ c)

theorem L7_a6 (c : Dev nD) : W7 m ρ c (Proc.devRef .tc main_arg6) = x6 m c := by
  exact (W7_of_ne m ρ c main_arg6 (by decide)).trans (L6_a6 m ρ c)

theorem L7_a7 (c : Dev nD) : W7 m ρ c (Proc.devRef .tc main_arg7) = x7 m c := by
  exact (W7_of_ne m ρ c main_arg7 (by decide)).trans (L6_a7 m ρ c)

theorem L7_a9 (c : Dev nD) : W7 m ρ c (Proc.devRef .tc main_arg9) = x9 m c := by
  exact (W7_of_ne m ρ c main_arg9 (by decide)).trans (L6_a9 m ρ c)

end Cert.KernelIdeal.Chain

end
-- ==== Proof.Region3.lean ====
/-
  Region 3: the bias row added to every row of a 50000 x 128 array, followed by the positive part, computed
  block by block (ten blocks of 5000 rows; the bias is the same 1 x 128 row at every block), is ONE whole-array
  function of the two input arrays: entry (r, q) of the output is max (A(r, q) + B(0, q)) 0.
-/
import proofs.«130122_j30812095381571_1_alg».proof.Proof.Gen.KernelIdeal.Frame
import proofs.«130122_j30812095381571_1_alg».proof.Proof.Gen.ReferenceIdeal.Read
import proofs.«130122_j30812095381571_1_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.Pipeline (Dat)
open Idealize.ShloMosaic.ValueIdx

-- the buffer contents a region is entered from: a parameter
variable (V : (c : Dev nD) → (b : Ref sig .tc) → Buf (Elt Ideal) ((c : Thread nD τ).loc b))

/-- The body's arithmetic at entry (p, q) of a block: the block's entry plus the bias row's entry q, then the
    maximum with zero. -/
theorem r3_pay_apply (x0 : Vec Ideal S5000x128 .f32) (x1 : Vec Ideal S1x128 .f32) (p : Fin 5000) (q : Fin 128) :
    k3_pay1 x0 x1 (ix2 p q)
      = FloatOps.maximumf (FloatOps.addf (x0 (ix2 p q)) (x1 (ix2 (0 : Fin 1) q))) (Ideal.ofBits .f32 0x00000000#32) := by
  unfold k3_pay1
  show FloatOps.maximumf (FloatOps.addf (shapeCast _ _ _ (ix2 p q)) (broadcastTo _ (shapeCast _ _ _) _ (ix2 p q))) _ = _
  rw [shapeCast_self, shapeCast_self, broadcastTo_1b_ab_apply]
  rfl

/-- The stage function at entry (r, q) of the whole array. -/
theorem r3_stage_apply (A : FVec Ideal Cert.ReferenceIdeal.S50000x128 .f32) (B : FVec Ideal Cert.ReferenceIdeal.S1x128 .f32)
    (r : Fin 50000) (q : Fin 128) :
    Cert.Stages.biasRelu A B (ix2 r q)
      = FloatOps.maximumf (FloatOps.addf (A (ix2 r q)) (B (ix2 (0 : Fin 1) q))) (Ideal.ofBits .f32 0x00000000#32) := by
  unfold Cert.Stages.biasRelu
  show FloatOps.maximumf (FloatOps.addf (A (ix2 r q))
      (broadcastInDim Cert.ReferenceIdeal.S50000x128 ![0, 1] Cert.ReferenceIdeal.Gen.bcast_S1x128_S50000x128_0_1 B (ix2 r q)))
      (broadcastInDim Cert.ReferenceIdeal.S50000x128 ![] Cert.ReferenceIdeal.Gen.bcast_S_S50000x128 (constant (F := Ideal) Cert.ReferenceIdeal.S_ .f32 0x00000000#32) (ix2 r q)) = _
  rw [broadcastInDim_apply _ Cert.ReferenceIdeal.Gen.bcast_S1x128_S50000x128_0_1 B (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)]),
    broadcastInDim_apply _ Cert.ReferenceIdeal.Gen.bcast_S_S50000x128 (constant (F := Ideal) Cert.ReferenceIdeal.S_ .f32 0x00000000#32) (ix2 r q) ix0 (fun a => a.elim0)]
  rfl

/-- Offsets written as a vector are the zero function. -/
theorem r3_hz : (![0, 0] : Fin 2 → Nat) = fun _ => 0 := funext fun a => by fin_cases a <;> rfl

/-- The index maps, decided once over the ten grid points: the input rows' block moves with the output's block, the
    bias window always sits at block (0, 0), the column block index is 0, and the row block index is at most 9. -/
theorem r3_idx : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every one of the ten row blocks is some grid point's output block. -/
theorem r3_idx_onto : ∀ q0 : Fin 10, ∃ t : Fin cfg3.N, win3_2.index t = ![q0.val, 0] :=
  (by decide +kernel : ∀ q0 : Fin 10, ∃ t : Fin grid3.N, win3_2.index t = ![q0.val, 0])

/-- The rows' input block at point t, entry (p, q), is the input array at row 5000 * (block index) + p, column q. -/
theorem r3_in0 (c : Dev nD) (t : Fin cfg3.N) (p : Fin 5000) (q : Fin 128) (r : Fin 50000)
    (hr : r.val = win3_2.index t (0 : Fin 2) * 5000 + p.val) :
    (iblk3 V c 0 t : Vec Ideal S5000x128 .f32) (ix2 p q) = (V c main_v61 : S50000x128.Idx → Elt Ideal .f32) (ix2 r q) := by
  obtain ⟨e0, e1, e2, e3, e4, e5⟩ := r3_idx t
  unfold iblk3
  rw [View.read_apply]
  show V c main_v61 _ = V c main_v61 _
  congr 1
  funext a
  apply Fin.ext
  match a with
  | ⟨0, _⟩ => show win3_0.index t (0 : Fin 2) * 5000 + 1 * p.val = r.val; omega
  | ⟨1, _⟩ => show win3_0.index t (1 : Fin 2) * 128 + 1 * q.val = q.val; omega

/-- The bias window's block at every point is the whole 1 x 128 bias array. -/
theorem r3_in1 (c : Dev nD) (t : Fin cfg3.N) (u : Fin 1) (q : Fin 128) :
    (iblk3 V c 1 t : Vec Ideal S1x128 .f32) (ix2 u q) = (V c main_v62 : S1x128.Idx → Elt Ideal .f32) (ix2 u q) := by
  obtain ⟨e0, e1, e2, e3, e4, e5⟩ := r3_idx t
  unfold iblk3
  rw [View.read_apply]
  show V c main_v62 _ = V c main_v62 _
  congr 1
  funext a
  apply Fin.ext
  match a with
  | ⟨0, _⟩ => show win3_1.index t (0 : Fin 2) * 1 + 1 * u.val = u.val; omega
  | ⟨1, _⟩ => show win3_1.index t (1 : Fin 2) * 128 + 1 * q.val = q.val; omega

/-- What point t writes back is block t of the stage function of the two input arrays. -/
theorem r3_flushed_eq (c : Dev nD) (t : Fin cfg3.N) :
    (dat3 V c).flushed 2 t
      = ((cfg3.win 2).blk t).view.read (Elt Ideal) (Cert.Stages.biasRelu (V c main_v61) (V c main_v62)) := by
  show (cfg3.win 2).cut (grid3.coords t) ((dat3 V c).after 2 t) = _
  rw [after3_2]
  unfold out3_2
  rw [View.canon_unit_zero r3_hz]
  simp only [View.ld_unit_zero (S := S5000x128) r3_hz, View.ld_unit_zero (S := S1x128) r3_hz]
  obtain ⟨e0, e1, e2, e3, e4, e5⟩ := r3_idx t
  funext j
  obtain ⟨p, q, rfl⟩ : ∃ (p : Fin 5000) (q : Fin 128), j = ix2 p q := ⟨j 0, j 1, eq_ix2 j⟩
  have hr : win3_2.index t (0 : Fin 2) * 5000 + p.val < 50000 := by have := p.isLt; omega
  have hemb : ((cfg3.win 2).blk t).view.emb (ix2 p q)
      = ix2 (⟨win3_2.index t (0 : Fin 2) * 5000 + p.val, hr⟩ : Fin 50000) q := by
    funext a
    apply Fin.ext
    match a with
    | ⟨0, _⟩ => show win3_2.index t (0 : Fin 2) * 5000 + 1 * p.val = win3_2.index t (0 : Fin 2) * 5000 + p.val; omega
    | ⟨1, _⟩ => show win3_2.index t (1 : Fin 2) * 128 + 1 * q.val = q.val; omega
  show k3_pay1 (iblk3 V c 0 t) (iblk3 V c 1 t) (ix2 p q)
      = Cert.Stages.biasRelu (V c main_v61) (V c main_v62) (((cfg3.win 2).blk t).view.emb (ix2 p q))
  refine (r3_pay_apply (iblk3 V c 0 t) (iblk3 V c 1 t) p q).trans ?_
  refine Eq.trans ?_ (congrArg (Cert.Stages.biasRelu (V c main_v61) (V c main_v62)) hemb).symm
  refine Eq.trans ?_ (r3_stage_apply (V c main_v61) (V c main_v62) ⟨win3_2.index t (0 : Fin 2) * 5000 + p.val, hr⟩ q).symm
  rw [r3_in0 V c t p q ⟨win3_2.index t (0 : Fin 2) * 5000 + p.val, hr⟩ rfl, r3_in1 V c t (0 : Fin 1) q]

/-- An index of the output array is in point t's block iff each coordinate is in the block's range on its axis. -/
theorem r3_mem_blk (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v63).slice (win3_2.rect t)).set ↔ _
  rw [View.set_slice_whole, Rect.mem_set_unit]
  exact Iff.rfl

/-- The ten output blocks cover the array: row r lies in block r / 5000. -/
theorem r3_cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := r3_idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [r3_mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- The output array after the region is the stage function of the two input arrays. -/
theorem region3_arr (c : Dev nD) :
    (dat3 V c).arrAt 2 cfg3.N = Cert.Stages.biasRelu (V c main_v61) (V c main_v62) :=
  (dat3 V c).arrAt_eq_of_cover 2 (Cert.Stages.biasRelu (V c main_v61) (V c main_v62))
    (fun t _ => r3_flushed_eq V c t) r3_cover

end Cert.KernelIdeal.Regions

end
-- ==== Proof.Region4.lean ====
/-
  The pooling head, the network's last tiled region, as one whole-array function of its four input arrays.

  The region has a single grid point, and at that point every window's block is its whole array: the summed
  features P (64 x 128), the node counts C (64 x 1), the head's weight column Wh (128 x 1), the head's bias Bh
  (1 x 1) and the output (64 x 1). The body computes, for each graph g,

      out(g, 0) = (sum over k < 128 of (P(g, k) / max (C(g, 0)) 1) * Wh(k, 0)) + Bh(0, 0).

  On the extended reals the change of float format before the product is the identity and the product into a
  zero accumulator is the plain sum over the contracted axis, so the body's arithmetic and the reference's
  host operations (a dot_general, a division, two broadcasts) read at entry (g, 0) as this same expression
  (`r4_val`). The one point's block index is zero on both axes of every window, so a block's element (r, k)
  is the array's element (0 * rows + r, 0 * columns + k) = (r, k); the single write-back covers the output.
-/
import proofs.«130122_j30812095381571_1_alg».proof.Proof.Gen.KernelIdeal.Frame
import proofs.«130122_j30812095381571_1_alg».proof.Proof.Gen.ReferenceIdeal.Read
import proofs.«130122_j30812095381571_1_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

-- the buffer contents a region is entered from: a parameter
variable (V : (c : Dev nD) → (b : Ref sig .tc) → Buf (Elt Ideal) ((c : Thread nD τ).loc b))

/-- The zero offsets of a whole-array rectangle, in the two spellings that occur. -/
theorem r4_hz : (![0, 0] : Fin 2 → Nat) = fun _ => 0 := funext fun a => by fin_cases a <;> rfl

/-- The head's value for graph g: the sum over the 128 features of (P(g, k) / max (C(g, 0)) 1) * Wh(k, 0),
    plus Bh(0, 0). The literal one is kept as its 32-bit word; it is never evaluated. -/
def r4_val (P : FVec Ideal S64x128 .f32) (C : FVec Ideal S64x1 .f32) (Wh : FVec Ideal S128x1 .f32)
    (Bh : FVec Ideal S1x1 .f32) (g : Fin 64) : Ideal .f32 :=
  (∑ k : Fin 128, Ideal.div (P (ix2 g k)) (max (C (ix2 g 0)) (Ideal.ofBits .f32 0x3F800000#32)) * Wh (ix2 k 0))
    + Bh (ix2 0 0)

/-! ### The contraction of the head's product: row g of the left factor against the one column of the right -/

theorem r4_lhs0 (i : S64x1.Idx) (q : dot_S64x128_S128x1_S64x1_1_0_0_1_n_n.contr.Idx) :
    (dot_S64x128_S128x1_S64x1_1_0_0_1_n_n.lhsIdx i q 0).val = (i 0).val := by
  unfold DotDims.lhsIdx
  rw [dif_neg (show ¬(0 : Fin S64x128.rank) ∈ dot_S64x128_S128x1_S64x1_1_0_0_1_n_n.lhsBatch by decide), dif_pos (show (0 : Fin S64x128.rank) ∈ dot_S64x128_S128x1_S64x1_1_0_0_1_n_n.lhsNonContracting by decide)]
  rfl
theorem r4_lhs1 (i : S64x1.Idx) (q : dot_S64x128_S128x1_S64x1_1_0_0_1_n_n.contr.Idx) :
    (dot_S64x128_S128x1_S64x1_1_0_0_1_n_n.lhsIdx i q 1).val = (q ⟨0, by decide⟩).val :=
  dot_S64x128_S128x1_S64x1_1_0_0_1_n_n.lhsIdx_val_of_single rfl i q
theorem r4_rhs0 (i : S64x1.Idx) (q : dot_S64x128_S128x1_S64x1_1_0_0_1_n_n.contr.Idx) :
    (dot_S64x128_S128x1_S64x1_1_0_0_1_n_n.rhsIdx i q 0).val = (q ⟨0, by decide⟩).val :=
  dot_S64x128_S128x1_S64x1_1_0_0_1_n_n.rhsIdx_val_of_single rfl i q
theorem r4_rhs1 (i : S64x1.Idx) (q : dot_S64x128_S128x1_S64x1_1_0_0_1_n_n.contr.Idx) :
    (dot_S64x128_S128x1_S64x1_1_0_0_1_n_n.rhsIdx i q 1).val = (i 1).val := by
  unfold DotDims.rhsIdx
  rw [dif_neg (show ¬(1 : Fin S128x1.rank) ∈ dot_S64x128_S128x1_S64x1_1_0_0_1_n_n.rhsBatch by decide), dif_pos (show (1 : Fin S128x1.rank) ∈ dot_S64x128_S128x1_S64x1_1_0_0_1_n_n.rhsNonContracting by decide)]
  rfl

/-- The product into the zero accumulator, read at (g, 0): the sum over the 128 features. -/
theorem r4_matmul_apply (l : FVec Ideal S64x128 .bf16) (r : FVec Ideal S128x1 .bf16) (g : Fin 64) :
    matmul dot_S64x128_S128x1_S64x1_1_0_0_1_n_n none l r (constant (F := Ideal) S64x1 .f32 0x00000000#32) (ix2 g (0 : Fin 1))
      = ∑ k : Fin 128, l (ix2 g k) * r (ix2 k (0 : Fin 1)) := by
  refine (Ideal.matmul_constant_zero_apply dot_S64x128_S128x1_S64x1_1_0_0_1_n_n none l r (ix2 g (0 : Fin 1))).trans ?_
  rw [← Equiv.sum_comp (contrEquiv1 dot_S64x128_S128x1_S64x1_1_0_0_1_n_n 128 rfl rfl).symm]
  refine Finset.sum_congr rfl fun k _ => ?_
  have hk := contrEquiv1_symm_val dot_S64x128_S128x1_S64x1_1_0_0_1_n_n 128 rfl rfl k
  have el : dot_S64x128_S128x1_S64x1_1_0_0_1_n_n.lhsIdx (ix2 g (0 : Fin 1)) ((contrEquiv1 dot_S64x128_S128x1_S64x1_1_0_0_1_n_n 128 rfl rfl).symm k) = ix2 g k := funext fun a => Fin.ext (by
    match a with
    | ⟨0, _⟩ => exact r4_lhs0 _ _
    | ⟨1, _⟩ => exact (r4_lhs1 _ _).trans hk)
  have er : dot_S64x128_S128x1_S64x1_1_0_0_1_n_n.rhsIdx (ix2 g (0 : Fin 1)) ((contrEquiv1 dot_S64x128_S128x1_S64x1_1_0_0_1_n_n 128 rfl rfl).symm k) = ix2 k (0 : Fin 1) := funext fun a => Fin.ext (by
    match a with
    | ⟨0, _⟩ => exact (r4_rhs0 _ _).trans hk
    | ⟨1, _⟩ => exact r4_rhs1 _ _)
  rw [el, er]

/-- A column broadcast to 128 lanes reads the column's entry of the same row. -/
theorem r4_bcast_col (x : FVec Ideal S64x1 .f32) (g : Fin 64) (k : Fin 128) :
    broadcastTo S64x128 x broadcasts_S64x1_S64x128 (ix2 g k) = x (ix2 g (0 : Fin 1)) :=
  broadcastTo_apply x broadcasts_S64x1_S64x128 (ix2 g k) (ix2 g (0 : Fin 1)) (fun a => match a with
    | ⟨0, _⟩ => by show g.val = if (64 : Nat) = 1 then 0 else g.val; rw [if_neg (by decide)]
    | ⟨1, _⟩ => by show 0 = if (1 : Nat) = 1 then 0 else k.val; rw [if_pos rfl])

/-- The one-entry bias broadcast down the 64 rows reads that entry. -/
theorem r4_bcast_one (x : FVec Ideal S1x1 .f32) (g : Fin 64) :
    broadcastTo S64x1 x broadcasts_S1x1_S64x1 (ix2 g (0 : Fin 1)) = x (ix2 (0 : Fin 1) (0 : Fin 1)) :=
  broadcastTo_apply x broadcasts_S1x1_S64x1 (ix2 g (0 : Fin 1)) (ix2 (0 : Fin 1) (0 : Fin 1)) (fun a => match a with
    | ⟨0, _⟩ => by show 0 = if (1 : Nat) = 1 then 0 else g.val; rw [if_pos rfl]
    | ⟨1, _⟩ => by show 0 = if (1 : Nat) = 1 then 0 else 0; rw [if_pos rfl])

/-- The body's arithmetic at entry (g, 0). -/
theorem r4_pay_apply (v0 : FVec Ideal S64x1 .f32) (v4 : FVec Ideal S64x128 .f32) (v9 : FVec Ideal S128x1 .f32)
    (v12 : FVec Ideal S1x1 .f32) (g : Fin 64) :
    k4_pay1 (F := Ideal) v0 v4 v9 v12 (ix2 g (0 : Fin 1)) = r4_val v4 v0 v9 v12 g := by
  unfold k4_pay1 r4_val
  rw [shapeCast_self, shapeCast_self, shapeCast_self, addf_apply, r4_matmul_apply, r4_bcast_one]
  refine congrArg (fun a : Ideal .f32 => a + v12 (ix2 (0 : Fin 1) (0 : Fin 1))) ?_
  refine Finset.sum_congr rfl fun k _ => ?_
  show Ideal.div (v4 (ix2 g k)) (broadcastTo S64x128 (maximumf v0 (broadcast S64x1 (FloatOps.ofBits .f32 0x3F800000#32))) broadcasts_S64x1_S64x128 (ix2 g k)) * v9 (ix2 k (0 : Fin 1)) = _
  rw [r4_bcast_col]
  rfl

/-! ### The reference's pooling head at entry (g, 0) -/

/-- The host's product read at (g, 0): the same sum over the 128 features. -/
theorem r4_ref_dot (l : FVec Ideal Cert.ReferenceIdeal.S64x128 .f32) (r : FVec Ideal Cert.ReferenceIdeal.S128x1 .f32) (g : Fin 64) :
    Host.dotGeneral (F := Ideal) Cert.ReferenceIdeal.dot_S64x128_S128x1_S64x1_1_0_0_1_n_n none l r (ix2 g (0 : Fin 1))
      = ∑ k : Fin 128, l (ix2 g k) * r (ix2 k (0 : Fin 1)) := by
  simp only [Host.dotGeneral]
  rw [Ideal.dotGeneral_apply, ← Equiv.sum_comp (contrEquiv1 Cert.ReferenceIdeal.dot_S64x128_S128x1_S64x1_1_0_0_1_n_n 128 rfl rfl).symm]
  refine Finset.sum_congr rfl fun k _ => ?_
  have hk := contrEquiv1_symm_val Cert.ReferenceIdeal.dot_S64x128_S128x1_S64x1_1_0_0_1_n_n 128 rfl rfl k
  have el : Cert.ReferenceIdeal.dot_S64x128_S128x1_S64x1_1_0_0_1_n_n.lhsIdx (ix2 g (0 : Fin 1)) ((contrEquiv1 Cert.ReferenceIdeal.dot_S64x128_S128x1_S64x1_1_0_0_1_n_n 128 rfl rfl).symm k) = ix2 g k := funext fun a => Fin.ext (by
    match a with
    | ⟨0, _⟩ => exact Cert.ReferenceIdeal.Read.lhs_main_v80_0 _ _
    | ⟨1, _⟩ => exact (Cert.ReferenceIdeal.Read.lhs_main_v80_1 _ _).trans hk)
  have er : Cert.ReferenceIdeal.dot_S64x128_S128x1_S64x1_1_0_0_1_n_n.rhsIdx (ix2 g (0 : Fin 1)) ((contrEquiv1 Cert.ReferenceIdeal.dot_S64x128_S128x1_S64x1_1_0_0_1_n_n 128 rfl rfl).symm k) = ix2 k (0 : Fin 1) := funext fun a => Fin.ext (by
    match a with
    | ⟨0, _⟩ => exact (Cert.ReferenceIdeal.Read.rhs_main_v80_0 _ _).trans hk
    | ⟨1, _⟩ => exact Cert.ReferenceIdeal.Read.rhs_main_v80_1 _ _)
  rw [el, er]

/-- The host's column broadcast to 128 lanes reads the column's entry of the same row. -/
theorem r4_ref_bcast_col (x : FVec Ideal Cert.ReferenceIdeal.S64x1 .f32) (g : Fin 64) (k : Fin 128) :
    broadcastInDim Cert.ReferenceIdeal.S64x128 ![0, 1] Cert.ReferenceIdeal.Gen.bcast_S64x1_S64x128_0_1 x (ix2 g k) = x (ix2 g (0 : Fin 1)) :=
  broadcastInDim_apply _ Cert.ReferenceIdeal.Gen.bcast_S64x1_S64x128_0_1 x (ix2 g k) (ix2 g (0 : Fin 1)) (fun a => match a with
    | ⟨0, _⟩ => by show g.val = if (64 : Nat) = 1 then 0 else g.val; rw [if_neg (by decide)]
    | ⟨1, _⟩ => by show 0 = if (1 : Nat) = 1 then 0 else k.val; rw [if_pos rfl])

/-- The host's broadcast of the one-entry bias down the 64 rows reads that entry. -/
theorem r4_ref_bcast_one (x : FVec Ideal Cert.ReferenceIdeal.S1x1 .f32) (g : Fin 64) :
    broadcastInDim Cert.ReferenceIdeal.S64x1 ![0, 1] Cert.ReferenceIdeal.Gen.bcast_S1x1_S64x1_0_1 x (ix2 g (0 : Fin 1)) = x (ix2 (0 : Fin 1) (0 : Fin 1)) :=
  broadcastInDim_apply _ Cert.ReferenceIdeal.Gen.bcast_S1x1_S64x1_0_1 x (ix2 g (0 : Fin 1)) (ix2 (0 : Fin 1) (0 : Fin 1)) (fun a => match a with
    | ⟨0, _⟩ => by show 0 = if (1 : Nat) = 1 then 0 else g.val; rw [if_pos rfl]
    | ⟨1, _⟩ => by show 0 = if (1 : Nat) = 1 then 0 else 0; rw [if_pos rfl])

/-- The reference's pooling head at entry (g, 0) is the same value. -/
theorem r4_ref_apply (P : FVec Ideal Cert.ReferenceIdeal.S64x128 .f32) (C : FVec Ideal Cert.ReferenceIdeal.S64x1 .f32)
    (Wh : FVec Ideal Cert.ReferenceIdeal.S128x1 .f32) (Bh : FVec Ideal Cert.ReferenceIdeal.S1x1 .f32) (g : Fin 64) :
    Cert.Stages.poolHead P C Wh Bh (ix2 g (0 : Fin 1)) = r4_val P C Wh Bh g := by
  unfold Cert.Stages.poolHead r4_val
  rw [addf_apply, r4_ref_dot, r4_ref_bcast_one]
  refine congrArg (fun a : Ideal .f32 => a + Bh (ix2 (0 : Fin 1) (0 : Fin 1))) ?_
  refine Finset.sum_congr rfl fun k _ => ?_
  show Ideal.div (P (ix2 g k)) (broadcastInDim Cert.ReferenceIdeal.S64x128 ![0, 1] Cert.ReferenceIdeal.Gen.bcast_S64x1_S64x128_0_1 (maximumf C (broadcast Cert.ReferenceIdeal.S64x1 (Scalar.ofBits (F := Ideal) .f32 0x3F800000#32))) (ix2 g k)) * Wh (ix2 k (0 : Fin 1)) = _
  rw [r4_ref_bcast_col]
  rfl

/-! ### From the one grid point's blocks to the arrays -/

/-- The body's arithmetic is the pooling head of its four loaded blocks, as whole arrays. -/
theorem r4_pay_eq (v0 : FVec Ideal S64x1 .f32) (v4 : FVec Ideal S64x128 .f32) (v9 : FVec Ideal S128x1 .f32)
    (v12 : FVec Ideal S1x1 .f32) :
    k4_pay1 (F := Ideal) v0 v4 v9 v12 = Cert.Stages.poolHead v4 v0 v9 v12 := by
  funext j
  obtain ⟨g, q, rfl⟩ : ∃ (g : Fin 64) (q : Fin 1), j = ix2 g q := ⟨j 0, j 1, eq_ix2 j⟩
  obtain rfl : q = 0 := Subsingleton.elim _ _
  rw [r4_pay_apply, r4_ref_apply]

/-- At the one grid point every window's block index is zero on both axes. -/
theorem r4_idx : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- The features window's one block is its whole array: element (r, k) of the block sits at 0 * 64 + r, 0 * 128 + k. -/
theorem r4_blk0 (c : Dev nD) (t : Fin cfg4.N) : (iblk4 V c 0 t : FVec Ideal S64x128 .f32) = V c main_v70 := by
  obtain ⟨e0, e1, -⟩ := r4_idx t
  funext y
  unfold iblk4
  show V c main_v70 (((cfg4.win 0).blk t).view.emb y) = V c main_v70 y
  refine congrArg (V c main_v70) (funext fun a => Fin.ext ?_)
  match a with
  | ⟨0, _⟩ => show win4_0.index t (0 : Fin 2) * 64 + 1 * (y 0).val = (y 0).val; omega
  | ⟨1, _⟩ => show win4_0.index t (1 : Fin 2) * 128 + 1 * (y 1).val = (y 1).val; omega

/-- The counts window's one block is its whole array. -/
theorem r4_blk1 (c : Dev nD) (t : Fin cfg4.N) : (iblk4 V c 1 t : FVec Ideal S64x1 .f32) = V c main_v71 := by
  obtain ⟨-, -, e0, e1, -⟩ := r4_idx t
  funext y
  unfold iblk4
  show V c main_v71 (((cfg4.win 1).blk t).view.emb y) = V c main_v71 y
  refine congrArg (V c main_v71) (funext fun a => Fin.ext ?_)
  match a with
  | ⟨0, _⟩ => show win4_1.index t (0 : Fin 2) * 64 + 1 * (y 0).val = (y 0).val; omega
  | ⟨1, _⟩ => show win4_1.index t (1 : Fin 2) * 1 + 1 * (y 1).val = (y 1).val; omega

/-- The weight column's one block is its whole array. -/
theorem r4_blk2 (c : Dev nD) (t : Fin cfg4.N) : (iblk4 V c 2 t : FVec Ideal S128x1 .f32) = V c main_arg6 := by
  obtain ⟨-, -, -, -, e0, e1, -⟩ := r4_idx t
  funext y
  unfold iblk4
  show V c main_arg6 (((cfg4.win 2).blk t).view.emb y) = V c main_arg6 y
  refine congrArg (V c main_arg6) (funext fun a => Fin.ext ?_)
  match a with
  | ⟨0, _⟩ => show win4_2.index t (0 : Fin 2) * 128 + 1 * (y 0).val = (y 0).val; omega
  | ⟨1, _⟩ => show win4_2.index t (1 : Fin 2) * 1 + 1 * (y 1).val = (y 1).val; omega

/-- The bias window's one block is its whole array. -/
theorem r4_blk3 (c : Dev nD) (t : Fin cfg4.N) : (iblk4 V c 3 t : FVec Ideal S1x1 .f32) = V c main_v72 := by
  obtain ⟨-, -, -, -, -, -, e0, e1, -⟩ := r4_idx t
  funext y
  unfold iblk4
  show V c main_v72 (((cfg4.win 3).blk t).view.emb y) = V c main_v72 y
  refine congrArg (V c main_v72) (funext fun a => Fin.ext ?_)
  match a with
  | ⟨0, _⟩ => show win4_3.index t (0 : Fin 2) * 1 + 1 * (y 0).val = (y 0).val; omega
  | ⟨1, _⟩ => show win4_3.index t (1 : Fin 2) * 1 + 1 * (y 1).val = (y 1).val; omega

/-- What the one grid point writes back is the (whole-array) block of the pooling head of the four input arrays. -/
theorem r4_flushed_eq (c : Dev nD) (t : Fin cfg4.N) :
    (dat4 V c).flushed 4 t = ((cfg4.win 4).blk t).view.read (Elt Ideal)
      (Cert.Stages.poolHead (V c main_v70) (V c main_v71) (V c main_arg6) (V c main_v72)) := by
  show (cfg4.win 4).cut (grid4.coords t) ((dat4 V c).after 4 t) = _
  rw [after4_4]
  unfold out4_4
  rw [View.canon_unit_zero r4_hz]
  simp only [View.ld_unit_zero (S := S64x1) r4_hz, View.ld_unit_zero (S := S64x128) r4_hz, View.ld_unit_zero (S := S128x1) r4_hz, View.ld_unit_zero (S := S1x1) r4_hz]
  rw [r4_blk0 V c t, r4_blk1 V c t, r4_blk2 V c t, r4_blk3 V c t,
    r4_pay_eq (V c main_v71) (V c main_v70) (V c main_arg6) (V c main_v72)]
  obtain ⟨-, -, -, -, -, -, -, -, e0, e1⟩ := r4_idx t
  funext j
  show Cert.Stages.poolHead (V c main_v70) (V c main_v71) (V c main_arg6) (V c main_v72) j
    = Cert.Stages.poolHead (V c main_v70) (V c main_v71) (V c main_arg6) (V c main_v72) (((cfg4.win 4).blk t).view.emb j)
  refine congrArg (Cert.Stages.poolHead (V c main_v70) (V c main_v71) (V c main_arg6) (V c main_v72)) (funext fun a => Fin.ext ?_)
  match a with
  | ⟨0, _⟩ => show (j 0).val = win4_4.index t (0 : Fin 2) * 64 + 1 * (j 0).val; omega
  | ⟨1, _⟩ => show (j 1).val = win4_4.index t (1 : Fin 2) * 1 + 1 * (j 1).val; omega

/-- An index of the output array is in the point's block iff each coordinate is in the block's range on its axis. -/
theorem r4_mem_blk (t : Fin cfg4.N) (i : S64x1.Idx) :
    i ∈ ((cfg4.win 4).blk t).view.set ↔ ∀ a : Fin 2, win4_4.index t a * S64x1.size a ≤ (i a).val ∧ (i a).val < win4_4.index t a * S64x1.size a + S64x1.size a := by
  show i ∈ ((View.whole main_v73).slice (win4_4.rect t)).set ↔ _
  rw [View.set_slice_whole, Rect.mem_set_unit]
  exact Iff.rfl

/-- Every index of the output array is in the one grid point's block. -/
theorem r4_cover (i : S64x1.Idx) : ∃ t : Fin cfg4.N, (cfg4.win 4).flush t = true ∧ i ∈ ((cfg4.win 4).blk t).view.set := by
  have hi0 : (i 0).val < 64 := (i 0).isLt
  have hi1 : (i 1).val < 1 := (i 1).isLt
  obtain ⟨-, -, -, -, -, -, -, -, e0, e1⟩ := r4_idx t4_0
  refine ⟨t4_0, flush4_4 t4_0, ?_⟩
  rw [r4_mem_blk]
  intro a
  match a with
  | ⟨0, _⟩ => show win4_4.index t4_0 (0 : Fin 2) * 64 ≤ (i 0).val ∧ (i 0).val < win4_4.index t4_0 (0 : Fin 2) * 64 + 64; omega
  | ⟨1, _⟩ => show win4_4.index t4_0 (1 : Fin 2) * 1 ≤ (i 1).val ∧ (i 1).val < win4_4.index t4_0 (1 : Fin 2) * 1 + 1; omega

theorem region4_arr (c : Dev nD) :
    (dat4 V c).arrAt 4 cfg4.N = Cert.Stages.poolHead (V c main_v70) (V c main_v71) (V c main_arg6) (V c main_v72) :=
  (dat4 V c).arrAt_eq_of_cover 4 (Cert.Stages.poolHead (V c main_v70) (V c main_v71) (V c main_arg6) (V c main_v72))
    (fun t _ => r4_flushed_eq V c t) r4_cover

end Cert.KernelIdeal.Regions

end
-- ==== Proof.ChainD.lean ====
/-
  The fold through the program (part 4 of 4): the second aggregation, the second bias and positive part, the
  per-graph sums and node counts, and the pooling head.  The result buffer holds the reference's last stage.
-/
import proofs.«130122_j30812095381571_1_alg».proof.Proof.ChainC
import proofs.«130122_j30812095381571_1_alg».proof.Proof.Region3
import proofs.«130122_j30812095381571_1_alg».proof.Proof.Region4
import Idealize.ShloMosaic.Lib.ValueIdx
import Idealize.ShloMosaic.Lib.Pipeline.Value
import Idealize.ShloMosaic.Lib.ValueLayout

set_option maxRecDepth 16384

noncomputable section

namespace Cert.KernelIdeal.Chain

open Cert.KernelIdeal Cert.KernelIdeal.Gen Cert.KernelIdeal.Regions
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The second aggregation, the second bias and positive part, the pooling sums -/

set_option maxHeartbeats 4000000 in
theorem L8_v61 (c : Dev nD) : W8 m ρ c (Proc.devRef .tc main_v61) = Cert.ReferenceIdeal.Read.val_main_v63 (x0 m c) (x1 m c) (x2 m c) (x3 m c) (x4 m c) (x8 m c) := by
  have e0 := L7_v31 m ρ c
  have e1 := L7_v5 m ρ c
  have e2 := L7_v6 m ρ c
  have e3 := L7_v48 m ρ c
  show StableHlo.after hostOps3 (W7 m ρ c) (Proc.devRef .tc main_v61) = _
  generalize W7 m ρ c = Wv at e0 e1 e2 e3 ⊢
  dsimp only [hostOps3]
  after_results
  rw [e0, e1, e2, e3]
  rfl

set_option maxHeartbeats 4000000 in
theorem L8_v62 (c : Dev nD) : W8 m ρ c (Proc.devRef .tc main_v62) = Cert.ReferenceIdeal.Read.val_main_v64 (x5 m c) := by
  have e0 := L7_a5 m ρ c
  show StableHlo.after hostOps3 (W7 m ρ c) (Proc.devRef .tc main_v62) = _
  generalize W7 m ρ c = Wv at e0 ⊢
  dsimp only [hostOps3]
  after_results
  rw [e0]
  exact row_reshape_eq (x5 m c)

set_option maxHeartbeats 4000000 in
theorem L8_a6 (c : Dev nD) : W8 m ρ c (Proc.devRef .tc main_arg6) = x6 m c := by
  have e0 := L7_a6 m ρ c
  show StableHlo.after hostOps3 (W7 m ρ c) (Proc.devRef .tc main_arg6) = _
  generalize W7 m ρ c = Wv at e0 ⊢
  dsimp only [hostOps3]
  after_results
  exact e0

set_option maxHeartbeats 4000000 in
theorem L8_a7 (c : Dev nD) : W8 m ρ c (Proc.devRef .tc main_arg7) = x7 m c := by
  have e0 := L7_a7 m ρ c
  show StableHlo.after hostOps3 (W7 m ρ c) (Proc.devRef .tc main_arg7) = _
  generalize W7 m ρ c = Wv at e0 ⊢
  dsimp only [hostOps3]
  after_results
  exact e0

set_option maxHeartbeats 4000000 in
theorem L8_a9 (c : Dev nD) : W8 m ρ c (Proc.devRef .tc main_arg9) = x9 m c := by
  have e0 := L7_a9 m ρ c
  show StableHlo.after hostOps3 (W7 m ρ c) (Proc.devRef .tc main_arg9) = _
  generalize W7 m ρ c = Wv at e0 ⊢
  dsimp only [hostOps3]
  after_results
  exact e0

theorem L9_v63 (c : Dev nD) : W9 m ρ c (Proc.devRef .tc main_v63) = Cert.ReferenceIdeal.Read.val_main_v67 (x0 m c) (x1 m c) (x2 m c) (x3 m c) (x4 m c) (x5 m c) (x8 m c) := by
  refine (W9_arr m ρ c 2).trans ((region3_arr (V8 m ρ) c).trans ?_)
  show Cert.Stages.biasRelu (W8 m ρ c (Proc.devRef .tc main_v61)) (W8 m ρ c (Proc.devRef .tc main_v62)) = _
  rw [L8_v61, L8_v62]
  rfl

theorem L9_a6 (c : Dev nD) : W9 m ρ c (Proc.devRef .tc main_arg6) = x6 m c := by
  exact (W9_of_ne m ρ c main_arg6 (by decide)).trans (L8_a6 m ρ c)

theorem L9_a7 (c : Dev nD) : W9 m ρ c (Proc.devRef .tc main_arg7) = x7 m c := by
  exact (W9_of_ne m ρ c main_arg7 (by decide)).trans (L8_a7 m ρ c)

theorem L9_a9 (c : Dev nD) : W9 m ρ c (Proc.devRef .tc main_arg9) = x9 m c := by
  exact (W9_of_ne m ρ c main_arg9 (by decide)).trans (L8_a9 m ρ c)

set_option maxHeartbeats 4000000 in
theorem L10_v70 (c : Dev nD) : W10 m ρ c (Proc.devRef .tc main_v70) = Cert.ReferenceIdeal.Read.val_main_v74 (x0 m c) (x1 m c) (x2 m c) (x3 m c) (x4 m c) (x5 m c) (x8 m c) (x9 m c) := by
  have e0 := L9_v63 m ρ c
  have e1 := L9_a9 m ρ c
  show StableHlo.after hostOps4 (W9 m ρ c) (Proc.devRef .tc main_v70) = _
  generalize W9 m ρ c = Wv at e0 e1 ⊢
  dsimp only [hostOps4]
  after_results
  rw [e0, e1]
  rfl

set_option maxHeartbeats 4000000 in
theorem L10_v71 (c : Dev nD) : W10 m ρ c (Proc.devRef .tc main_v71) = shapeCast S64x1 (Cert.ReferenceIdeal.Read.val_main_v71 (x9 m c)) shapeCasts_S64_S64x1 := by
  have e0 := L9_a9 m ρ c
  show StableHlo.after hostOps4 (W9 m ρ c) (Proc.devRef .tc main_v71) = _
  generalize W9 m ρ c = Wv at e0 ⊢
  dsimp only [hostOps4]
  after_results
  rw [e0]
  rfl

set_option maxHeartbeats 4000000 in
theorem L10_v72 (c : Dev nD) : W10 m ρ c (Proc.devRef .tc main_v72) = shapeCast S1x1 (x7 m c) shapeCasts_S1_S1x1 := by
  have e0 := L9_a7 m ρ c
  show StableHlo.after hostOps4 (W9 m ρ c) (Proc.devRef .tc main_v72) = _
  generalize W9 m ρ c = Wv at e0 ⊢
  dsimp only [hostOps4]
  after_results
  rw [e0]
  rfl

set_option maxHeartbeats 4000000 in
theorem L10_a6 (c : Dev nD) : W10 m ρ c (Proc.devRef .tc main_arg6) = x6 m c := by
  have e0 := L9_a6 m ρ c
  show StableHlo.after hostOps4 (W9 m ρ c) (Proc.devRef .tc main_arg6) = _
  generalize W9 m ρ c = Wv at e0 ⊢
  dsimp only [hostOps4]
  after_results
  exact e0

/-! ## Layout glue of the pooling head

The kernel's program hands the head the node counts as a [64, 1] column (a reshape of the [64] vector) and clamps
them inside the head; the reference clamps the [64] vector and then adds the unit axis. Entry (g, 0) is
max (count g) 1 either way. Likewise the head's bias, a [1] vector, reaches the head as a [1, 1] array. -/

/-- An `[a]` array cast to `[a, 1]` reads, at `(i, u)`, the operand at `i`, whatever the unit coordinate `u`. -/
theorem col_cast_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The clamped counts as a column: clamping the reshaped column is reshaping (by broadcast along the new unit axis)
    the clamped vector. -/
theorem counts_col_eq (cnt : FVec Ideal Cert.ReferenceIdeal.S64 .f32) :
    maximumf (shapeCast S64x1 cnt shapeCasts_S64_S64x1) (broadcast Cert.ReferenceIdeal.S64x1 (Scalar.ofBits (F := Ideal) .f32 0x3F800000#32))
      = broadcastInDim Cert.ReferenceIdeal.S64x1 ![0] Cert.ReferenceIdeal.Gen.bcast_S64_S64x1_0
          (maximumf cnt (broadcastInDim Cert.ReferenceIdeal.S64 ![] Cert.ReferenceIdeal.Gen.bcast_S_S64 (constant (F := Ideal) Cert.ReferenceIdeal.S_ .f32 0x3F800000#32))) := by
  funext j
  obtain ⟨g, u, rfl⟩ : ∃ (g : Fin 64) (u : Fin 1), j = ValueIdx.ix2 g u := ⟨j 0, j 1, ValueIdx.eq_ix2 j⟩
  refine Eq.trans ?_ (broadcastInDim_apply _ Cert.ReferenceIdeal.Gen.bcast_S64_S64x1_0 _ (ValueIdx.ix2 g u) (ValueIdx.ix1 g) (fun a => match a with
    | ⟨0, _⟩ => by show g.val = if (64 : Nat) = 1 then 0 else g.val; rw [if_neg (by decide)])).symm
  show max (shapeCast S64x1 cnt shapeCasts_S64_S64x1 (ValueIdx.ix2 g u)) (Ideal.ofBits .f32 0x3F800000#32)
      = max (cnt (ValueIdx.ix1 g)) (broadcastInDim Cert.ReferenceIdeal.S64 ![] Cert.ReferenceIdeal.Gen.bcast_S_S64 (constant (F := Ideal) Cert.ReferenceIdeal.S_ .f32 0x3F800000#32) (ValueIdx.ix1 g))
  rw [broadcastInDim_apply _ Cert.ReferenceIdeal.Gen.bcast_S_S64 (constant (F := Ideal) Cert.ReferenceIdeal.S_ .f32 0x3F800000#32) (ValueIdx.ix1 g) ValueIdx.ix0 (fun a => a.elim0)]
  exact congrArg (fun v => max v (Ideal.ofBits .f32 0x3F800000#32)) (col_cast_apply cnt shapeCasts_S64_S64x1 g u)

/-- A [1] vector reshaped to [1, 1] is the vector broadcast along a new leading unit axis. -/
theorem unit_reshape_eq (b : FVec Ideal Cert.ReferenceIdeal.S1 .f32) :
    shapeCast S1x1 b shapeCasts_S1_S1x1 = broadcastInDim Cert.ReferenceIdeal.S1x1 ![1] Cert.ReferenceIdeal.Gen.bcast_S1_S1x1_1 b := by
  funext j
  obtain ⟨u, q, rfl⟩ : ∃ (u : Fin 1) (q : Fin 1), j = ValueIdx.ix2 u q := ⟨j 0, j 1, ValueIdx.eq_ix2 j⟩
  refine (ValueIdx.shapeCast_a_1a_apply b shapeCasts_S1_S1x1 u q).trans ?_
  refine (broadcastInDim_apply _ Cert.ReferenceIdeal.Gen.bcast_S1_S1x1_1 b (ValueIdx.ix2 u q) (ValueIdx.ix1 q) (fun a => match a with
    | ⟨0, _⟩ => by show q.val = if (1 : Nat) = 1 then 0 else q.val; rw [if_pos rfl]; omega)).symm

/-- The pooling head fed the reshaped counts and bias is the reference's last five stages. -/
theorem head_eq (P : FVec Ideal Cert.ReferenceIdeal.S64x128 .f32) (cnt : FVec Ideal Cert.ReferenceIdeal.S64 .f32) (Wh : FVec Ideal Cert.ReferenceIdeal.S128x1 .f32)
    (bh : FVec Ideal Cert.ReferenceIdeal.S1 .f32) :
    Cert.Stages.poolHead P (shapeCast S64x1 cnt shapeCasts_S64_S64x1) Wh (shapeCast S1x1 bh shapeCasts_S1_S1x1)
      = addf (Host.dotGeneral (F := Ideal) Cert.ReferenceIdeal.dot_S64x128_S128x1_S64x1_1_0_0_1_n_n none
            (Host.divf (F := Ideal) P (broadcastInDim Cert.ReferenceIdeal.S64x128 ![0, 1] Cert.ReferenceIdeal.Gen.bcast_S64x1_S64x128_0_1
              (broadcastInDim Cert.ReferenceIdeal.S64x1 ![0] Cert.ReferenceIdeal.Gen.bcast_S64_S64x1_0
                (maximumf cnt (broadcastInDim Cert.ReferenceIdeal.S64 ![] Cert.ReferenceIdeal.Gen.bcast_S_S64 (constant (F := Ideal) Cert.ReferenceIdeal.S_ .f32 0x3F800000#32)))))) Wh)
          (broadcastInDim Cert.ReferenceIdeal.S64x1 ![0, 1] Cert.ReferenceIdeal.Gen.bcast_S1x1_S64x1_0_1 (broadcastInDim Cert.ReferenceIdeal.S1x1 ![1] Cert.ReferenceIdeal.Gen.bcast_S1_S1x1_1 bh)) := by
  unfold Cert.Stages.poolHead
  rw [counts_col_eq cnt, unit_reshape_eq bh]

/-! ## The result -/

theorem L11_v73 (c : Dev nD) : W11 m ρ c (Proc.devRef .tc main_v73) = Cert.ReferenceIdeal.Read.val_main_v83 (x0 m c) (x1 m c) (x2 m c) (x3 m c) (x4 m c) (x5 m c) (x6 m c) (x7 m c) (x8 m c) (x9 m c) := by
  refine (W11_arr m ρ c 4).trans ((region4_arr (V10 m ρ) c).trans ?_)
  show Cert.Stages.poolHead (W10 m ρ c (Proc.devRef .tc main_v70)) (W10 m ρ c (Proc.devRef .tc main_v71)) (W10 m ρ c (Proc.devRef .tc main_arg6)) (W10 m ρ c (Proc.devRef .tc main_v72)) = _
  rw [L10_v70, L10_v71, L10_a6, L10_v72]
  refine (head_eq _ _ _ _).trans ?_
  rfl

end Cert.KernelIdeal.Chain

end
-- ==== Proof.lean ====
/-
  A two-layer graph convolution network with a mean-pool head: the tiled kernel program against its plain
  reference, on the extended reals.

  Both programs compute the same expression.  The edge normalisation, the gathers along the source nodes and the
  scatter-adds onto the target nodes and onto the graphs are the same host operations in both.  The kernel program
  replaces the reference's three kinds of dense stages by tiled kernels: a feature transform (a product with a
  128 x 128 weight matrix, taken block by block over ten blocks of 5000 rows, its factors first narrowed to a
  shorter float format, which on the extended reals is the identity), a bias row added to every row followed by
  the positive part (again block by block), and the pooling head (sums divided by clamped counts, times a weight
  column, plus a bias).  On the extended reals a product accumulated into a zero block is the plain sum the
  reference's product is, and the blocks of a stage tile its array, so each region leaves the reference's own
  stage (Region0 … Region4).  The fold through the program (Chain) then reads every boundary's live buffers as the
  reference's stage functions of the ten argument arrays, up to the result.  No law used needs finiteness: sums are
  only re-read, never rearranged across a product, so the precondition is not opened.

  The three frames are the generated ones (for the reference: its generated run with the result dropped); the
  idealisation rewrote nothing, so `preserves` is trivial.
-/
import proofs.«130122_j30812095381571_1_alg».proof.Defs
import proofs.«130122_j30812095381571_1_alg».proof.Proof.Gen.Kernel
import proofs.«130122_j30812095381571_1_alg».proof.Proof.Gen.Kernel.Skeleton
import proofs.«130122_j30812095381571_1_alg».proof.Proof.Gen.Kernel.Launch
import proofs.«130122_j30812095381571_1_alg».proof.Proof.Gen.Kernel.Points
import proofs.«130122_j30812095381571_1_alg».proof.Proof.Gen.Kernel.Frame
import proofs.«130122_j30812095381571_1_alg».proof.Proof.Gen.KernelIdeal
import proofs.«130122_j30812095381571_1_alg».proof.Proof.Gen.KernelIdeal.Skeleton
import proofs.«130122_j30812095381571_1_alg».proof.Proof.Gen.KernelIdeal.Launch
import proofs.«130122_j30812095381571_1_alg».proof.Proof.Gen.KernelIdeal.Points
import proofs.«130122_j30812095381571_1_alg».proof.Proof.Gen.KernelIdeal.Frame
import proofs.«130122_j30812095381571_1_alg».proof.Proof.Gen.ReferenceIdeal
import proofs.«130122_j30812095381571_1_alg».proof.Proof.Gen.ReferenceIdeal.Run
import proofs.«130122_j30812095381571_1_alg».proof.Proof.Gen.ReferenceIdeal.Read
import proofs.«130122_j30812095381571_1_alg».proof.Proof.Gen.Pre_finite_inputs
import proofs.«130122_j30812095381571_1_alg».proof.Proof.KernelRun
import proofs.«130122_j30812095381571_1_alg».proof.Proof.ChainD
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end, from memories agreeing on the arguments, at the reference's last stage of the argument
    arrays: the kernel program by the fold through its regions, the reference by its run. -/
theorem algebraic : Cert.algebraic_KernelIdeal_ReferenceIdeal := by
  intro m ρ m' ρ' _ hagree
  refine ⟨fun c => Cert.ReferenceIdeal.Read.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.L11_v73 m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v83_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
